-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000000 : Shape := ⟨2, ![64, 1000000]⟩
abbrev S_ : Shape := ⟨0, ![]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel

variable [Facts]

def fn {F : FTy → Type} [FloatOps F] (main_arg0 : FVec F S64x1000000 .f32) : IVec S_ 1 :=
  let main_v0 : FVec F S64x1000000 .f32 := Host.absf main_arg0
  let main_cst : FVec F S_ .f32 := constant S_ .f32 0x7F800000#32
  let main_v1 : FVec F S64x1000000 .f32 := broadcastInDim S64x1000000 ![] bcast_S_S64x1000000 main_cst
  let main_v2 : IVec S64x1000000 1 := cmpf .olt main_v0 main_v1
  let main_c : IVec S_ 1 := constantI S_ 1 1#1
  let main_v3 : IVec S_ 1 := (fun x v => Host.reduce IntOp.andi x v reducesTo_S64x1000000_S_d0_1 h_S_) main_v2 main_c
  let main_cst_0 : FVec F S_ .f32 := constant S_ .f32 0x00000000#32
  let main_v4 : FVec F S64x1000000 .f32 := broadcastInDim S64x1000000 ![] bcast_S_S64x1000000 main_cst_0
  let main_v5 : IVec S64x1000000 1 := cmpf .oge main_arg0 main_v4
  let main_c_1 : IVec S_ 1 := constantI S_ 1 1#1
  let main_v6 : IVec S_ 1 := (fun x v => Host.reduce IntOp.andi x v reducesTo_S64x1000000_S_d0_1 h_S_) main_v5 main_c_1
  let main_v7 : IVec S_ 1 := andi main_v3 main_v6
  let main_cst_2 : FVec F S_ .f32 := constant S_ .f32 0x3F800000#32
  let main_v8 : FVec F S64x1000000 .f32 := broadcastInDim S64x1000000 ![] bcast_S_S64x1000000 main_cst_2
  let main_v9 : IVec S64x1000000 1 := cmpf .olt main_arg0 main_v8
  let main_c_3 : IVec S_ 1 := constantI S_ 1 1#1
  let main_v10 : IVec S_ 1 := (fun x v => Host.reduce IntOp.andi x v reducesTo_S64x1000000_S_d0_1 h_S_) main_v9 main_c_3
  let main_v11 : IVec S_ 1 := andi main_v7 main_v10
  main_v11
-- ==== Kernel.lean ====
abbrev S64x1000000 : Shape := ⟨2, ![64, 1000000]⟩
abbrev S64x5x4 : Shape := ⟨3, ![64, 5, 4]⟩
abbrev S32x8192 : Shape := ⟨2, ![32, 8192]⟩
abbrev S32x5x4 : Shape := ⟨3, ![32, 5, 4]⟩
abbrev S32x1x8192 : Shape := ⟨3, ![32, 1, 8192]⟩
abbrev S32x5x8192 : Shape := ⟨3, ![32, 5, 8192]⟩
abbrev S32x4x8192 : Shape := ⟨3, ![32, 4, 8192]⟩
abbrev S64x20 : Shape := ⟨2, ![64, 20]⟩
abbrev S_ : Shape := ⟨0, ![]⟩

abbrev nBuf : Space → Nat
  | .hbm => 24
  | .vmem => 4
  | .smem => 0
  | _ => 0

abbrev bufTy : (tb : Table) → Fin (tcTables nBuf tb) → BufTy
  | .hbm, ⟨0, _⟩ => ⟨S64x1000000, .f32⟩
  | .hbm, ⟨1, _⟩ => ⟨S64x5x4, .f32⟩
  | .hbm, ⟨2, _⟩ => ⟨S64x20, .f32⟩
  | .hbm, ⟨3, _⟩ => ⟨S_, .f32⟩
  | .hbm, ⟨4, _⟩ => ⟨S64x20, .f32⟩
  | .hbm, ⟨5, _⟩ => ⟨S64x20, .f32⟩
  | .hbm, ⟨6, _⟩ => ⟨S_, .f32⟩
  | .hbm, ⟨7, _⟩ => ⟨S64x20, .f32⟩
  | .hbm, ⟨8, _⟩ => ⟨S64x20, .f32⟩
  | .hbm, ⟨9, _⟩ => ⟨S_, .f32⟩
  | .hbm, ⟨10, _⟩ => ⟨S64x20, .f32⟩
  | .hbm, ⟨11, _⟩ => ⟨S64x20, .i1⟩
  | .hbm, ⟨12, _⟩ => ⟨S64x20, .f32⟩
  | .hbm, ⟨13, _⟩ => ⟨S64x20, .f32⟩
  | .hbm, ⟨14, _⟩ => ⟨S_, .f32⟩
  | .hbm, ⟨15, _⟩ => ⟨S_, .f32⟩
  | .hbm, ⟨16, _⟩ => ⟨S64x20, .f32⟩
  | .hbm, ⟨17, _⟩ => ⟨S64x20, .f32⟩
  | .hbm, ⟨18, _⟩ => ⟨S64x20, .f32⟩
  | .hbm, ⟨19, _⟩ => ⟨S_, .f32⟩
  | .hbm, ⟨20, _⟩ => ⟨S64x20, .f32⟩
  | .hbm, ⟨21, _⟩ => ⟨S64x20, .f32⟩
  | .hbm, ⟨22, _⟩ => ⟨S_, .f32⟩
  | .hbm, ⟨23, _⟩ => ⟨S_, .f32⟩
  | .local _ .vmem, ⟨0, _⟩ => ⟨S32x8192, .f32⟩
  | .local _ .vmem, ⟨1, _⟩ => ⟨S32x8192, .f32⟩
  | .local _ .vmem, ⟨2, _⟩ => ⟨S32x5x4, .f32⟩
  | .local _ .vmem, ⟨3, _⟩ => ⟨S32x5x4, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_call0_v0 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 123], ![false, false]⟩

def k0_cond1 (i : grid0.Coords) : BitVec 1 :=
  let arg1 : BitVec 32 := BitVec.ofNat 32 (i 1).val
  let c0_i32_9 : BitVec 32 := 0#32
  let v77 : BitVec 1 := Scalar.cmpi .eq arg1 c0_i32_9
  let v78 : BitVec 32 := Scalar.extui v77
  let c0_i32_10 : BitVec 32 := 0#32
  let v79 : BitVec 1 := Scalar.cmpi .ne v78 c0_i32_10
  v79

def k0_cond2 (i : grid0.Coords) : BitVec 1 :=
  let arg1 : BitVec 32 := BitVec.ofNat 32 (i 1).val
  let c0_i32_11 : BitVec 32 := 0#32
  let v80 : BitVec 1 := Scalar.cmpi .ne arg1 c0_i32_11
  let v81 : BitVec 32 := Scalar.extui v80
  let c0_i32_12 : BitVec 32 := 0#32
  let v82 : BitVec 1 := Scalar.cmpi .ne v81 c0_i32_12
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x5x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  iota_S32x8192_d1_w32 : S32x8192.Iotas .tc 32 [1]
  inb_S32x8192_S32x8192_0_0 : ∀ a, (![0, 0] : Fin 2 → Nat) a + S32x8192.size a ≤ S32x8192.size a
  h_S32x8192 : 0 < S32x8192.numel
  natLt_1_32 : 1 < 32
  bitsLt_bf16_f32 : FTy.bits .bf16 < FTy.bits .f32
  shapeCasts_S32x8192_S32x1x8192 : S32x8192.ShapeCasts S32x1x8192
  concatenates_S32x1x8192_S32x1x8192_S32x1x8192_S32x1x8192_S32x1x8192_S32x5x8192_d1 : Shape.Concatenates [S32x1x8192, S32x1x8192, S32x1x8192, S32x1x8192, S32x1x8192] S32x5x8192 1
  concatenates_S32x1x8192_S32x1x8192_S32x1x8192_S32x1x8192_S32x4x8192_d1 : Shape.Concatenates [S32x1x8192, S32x1x8192, S32x1x8192, S32x1x8192] S32x4x8192 1
  inb_S32x5x4_S32x5x4_0_0_0 : ∀ a, (![0, 0, 0] : Fin 3 → Nat) a + S32x5x4.size a ≤ S32x5x4.size a
  h_S32x5x4 : 0 < S32x5x4.numel
  shapeCasts_S32x5x4_S32x5x4 : S32x5x4.ShapeCasts S32x5x4
  shapeCasts_S64x5x4_S64x20 : S64x5x4.ShapeCasts S64x20
  bcast_S_S64x20 : S_.BroadcastsInDim S64x20 (![] : Fin 0 → Fin S64x20.rank)
  reducesTo_S64x20_S_d0_1 : S64x20.ReducesTo [0, 1] S_
  h_S_ : 0 < S_.numel
  dot_S32x5x8192_S32x4x8192_S32x5x4_2_2_1_1_0_0_wf : DotDims.WF S32x5x8192 S32x4x8192 S32x5x4 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x8192.size a < S64x1000000.size a
  hwx0_0 : ∀ i : grid0.Coords, EltTy.bits .f32 = 32 ∨ (Rect.unit (s := S64x1000000) (fun a => cc0_transform_0 i a * S32x8192.size a) (fun a => (Pipeline.Clip.of (cc0_transform_0 i a) (S32x8192.size a) (S64x1000000.size a)).extent (S32x8192.size a)) fun a => Pipeline.Clip.inb (Pipeline.Clip.ok_of (hstart0_0 i a))).WholeWords (EltTy.packing .f32)
  hwxs0_0 : ∀ i : grid0.Coords, EltTy.bits .f32 = 32 ∨ (Rect.unit (s := S32x8192) (fun _ => 0) (fun a => (Pipeline.Clip.of (cc0_transform_0 i a) (S32x8192.size a) (S64x1000000.size a)).extent (S32x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x5x4.size a ≤ S64x5x4.size a
  hwx0_1 : ∀ i : grid0.Coords, EltTy.bits .f32 = 32 ∨ (Rect.block (s := S64x5x4) S32x5x4.size (cc0_transform_1 i) (hinb0_1 i)).WholeWords (EltTy.packing .f32)

variable [Facts₀]

def dot_S32x5x8192_S32x4x8192_S32x5x4_2_2_1_1_0_0 : DotDims S32x5x8192 S32x4x8192 S32x5x4 where
  lhsContracting := [2]
  rhsContracting := [2]
  lhsNonContracting := [1]
  rhsNonContracting := [1]
  lhsBatch := [0]
  rhsBatch := [0]
  wf := dot_S32x5x8192_S32x4x8192_S32x5x4_2_2_1_1_0_0_wf

abbrev win0_0 : Pipeline.Window sig grid0 :=
  Pipeline.Window.ofSpecClip (Memref.whole main_arg0) S32x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S32x5x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S64x1000000 : Shape := ⟨2, ![64, 1000000]⟩
abbrev S_ : Shape := ⟨0, ![]⟩
abbrev S64 : Shape := ⟨1, ![64]⟩
abbrev S64x1 : Shape := ⟨2, ![64, 1]⟩
abbrev S64000000 : Shape := ⟨1, ![64000000]⟩
abbrev S1280 : Shape := ⟨1, ![1280]⟩
abbrev S64000000x1 : Shape := ⟨2, ![64000000, 1]⟩
abbrev S64x20 : Shape := ⟨2, ![64, 20]⟩

abbrev nBuf : Space → Nat
  | .hbm => 42
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S_, .f32⟩
  | .hbm, ⟨2, _⟩ => ⟨S64x1000000, .f32⟩
  | .hbm, ⟨3, _⟩ => ⟨S64x1000000, .f32⟩
  | .hbm, ⟨4, _⟩ => ⟨S64x1000000, .f32⟩
  | .hbm, ⟨5, _⟩ => ⟨S64x1000000, .i32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S64x1000000, .i32⟩
  | .hbm, ⟨12, _⟩ => ⟨S64x1000000, .i32⟩
  | .hbm, ⟨13, _⟩ => ⟨S64000000, .i32⟩
  | .hbm, ⟨14, _⟩ => ⟨S_, .f32⟩
  | .hbm, ⟨15, _⟩ => ⟨S64000000, .f32⟩
  | .hbm, ⟨16, _⟩ => ⟨S_, .f32⟩
  | .hbm, ⟨17, _⟩ => ⟨S1280, .f32⟩
  | .hbm, ⟨18, _⟩ => ⟨S64000000x1, .i32⟩
  | .hbm, ⟨19, _⟩ => ⟨S1280, .f32⟩
  | .hbm, ⟨20, _⟩ => ⟨S64x20, .f32⟩
  | .hbm, ⟨21, _⟩ => ⟨S_, .f32⟩
  | .hbm, ⟨22, _⟩ => ⟨S64x20, .f32⟩
  | .hbm, ⟨23, _⟩ => ⟨S64x20, .f32⟩
  | .hbm, ⟨24, _⟩ => ⟨S_, .f32⟩
  | .hbm, ⟨25, _⟩ => ⟨S64x20, .f32⟩
  | .hbm, ⟨26, _⟩ => ⟨S64x20, .f32⟩
  | .hbm, ⟨27, _⟩ => ⟨S_, .f32⟩
  | .hbm, ⟨28, _⟩ => ⟨S64x20, .f32⟩
  | .hbm, ⟨29, _⟩ => ⟨S64x20, .i1⟩
  | .hbm, ⟨30, _⟩ => ⟨S64x20, .f32⟩
  | .hbm, ⟨31, _⟩ => ⟨S64x20, .f32⟩
  | .hbm, ⟨32, _⟩ => ⟨S_, .f32⟩
  | .hbm, ⟨33, _⟩ => ⟨S_, .f32⟩
  | .hbm, ⟨34, _⟩ => ⟨S64x20, .f32⟩
  | .hbm, ⟨35, _⟩ => ⟨S64x20, .f32⟩
  | .hbm, ⟨36, _⟩ => ⟨S64x20, .f32⟩
  | .hbm, ⟨37, _⟩ => ⟨S_, .f32⟩
  | .hbm, ⟨38, _⟩ => ⟨S64x20, .f32⟩
  | .hbm, ⟨39, _⟩ => ⟨S64x20, .f32⟩
  | .hbm, ⟨40, _⟩ => ⟨S_, .f32⟩
  | .hbm, ⟨41, _⟩ => ⟨S_, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_call0_v0 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S_S64x1000000 : S_.BroadcastsInDim S64x1000000 (![] : Fin 0 → Fin S64x1000000.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1000000_0_1 : S64x1.BroadcastsInDim S64x1000000 (![0, 1] : Fin 2 → Fin S64x1000000.rank)
  shapeCasts_S64x1000000_S64000000 : S64x1000000.ShapeCasts S64000000
  bcast_S_S64000000 : S_.BroadcastsInDim S64000000 (![] : Fin 0 → Fin S64000000.rank)
  bcast_S_S1280 : S_.BroadcastsInDim S1280 (![] : Fin 0 → Fin S1280.rank)
  bcast_S64000000_S64000000x1_0 : S64000000.BroadcastsInDim S64000000x1 (![0] : Fin 1 → Fin S64000000x1.rank)
  shapeCasts_S1280_S64x20 : S1280.ShapeCasts S64x20
  bcast_S_S64x20 : S_.BroadcastsInDim S64x20 (![] : Fin 0 → Fin S64x20.rank)
  reducesTo_S64x20_S_d0_1 : S64x20.ReducesTo [0, 1] S_
  h_S_ : 0 < S_.numel
  scatter_S1280_S64000000x1_S64000000_n_0_0_1_wf : ScatterDims.WF S1280 S64000000x1 S64000000 [] [0] [0] 1

variable [Facts₀]

def scatter_S1280_S64000000x1_S64000000_n_0_0_1 : ScatterDims S1280 S64000000x1 S64000000 where
  updateWindowDims := []
  insertedWindowDims := [0]
  scatterDimsToOperandDims := [0]
  indexVectorDim := 1
  wf := scatter_S1280_S64000000x1_S64000000_n_0_0_1_wf

class Facts : Prop extends Facts₀ where

variable [Facts]
-- ==== Proof.TileK.lean ====
/-
  One grid step's contribution to the histogram, as a pure function of the step's block of scores.

  At the step with column-tile number `j` the body reads a block `X` of 32 rows by 8192 columns, replaces the
  entries whose global column `8192·j + l` is not below 1,000,000 by `-1`, forms `hi = ⌊5·x⌋` and
  `lo = ⌊20·x⌋ - 4·hi` as 32-bit words, builds the five 0/1 masks `hi = h` and the four 0/1 masks `lo = q`, and
  contracts them over the columns: entry `(r, h, q)` of the result is the sum over `l` of the product of the two
  masks at `(r, l)`. `tile i X` is that result, assembled from the body's named pure values.
-/
import proofs.«123458_j73744588472820_2_alg».proof.Proof.Gen.Kernel.Skeleton

noncomputable section

namespace Cert.Kernel.Hand

open Cert.Kernel Cert.Kernel.Gen Idealize.ShloMosaic

variable {F : FTy → Type} [FloatOps F]

/-- The 32 × 5 × 4 counts one step adds, from the step's grid coordinates and its block of scores. -/
def tile (i : grid0.Coords) (X : Vec F S32x8192 .f32) : FVec F S32x5x4 .f32 :=
  k0_pay1 (k0_pay5 i X) (k0_pay6 i X) (k0_pay7 i X) (k0_pay8 i X) (k0_pay9 i X) (k0_pay10 i X)

end Cert.Kernel.Hand

end
-- ==== Proof.MaskK.lean ====
/-
  The body's validity mask, read at an entry, at any float instance.

  At the step with column tile `j` the body compares the global column `8192·j + l` of entry `(r, l)` of its block with
  1,000,000, as signed 32-bit words, and keeps the entry where the column is below and puts `-1` elsewhere. With
  `j < 123` and `l < 8192` the column is below `2^31`, so the word arithmetic does not wrap and the signed
  comparison is the comparison of the natural numbers.
-/
import proofs.«123458_j73744588472820_2_alg».proof.Proof.Gen.Kernel.Skeleton
import Idealize.ShloMosaic.Lib.Pipeline.Value

noncomputable section

namespace Cert.Kernel.Hand

open Cert.Kernel Cert.Kernel.Gen Idealize.ShloMosaic

variable {F : FTy → Type} [FloatOps F]

/-- The column word: `j·8192 + l` in 32-bit arithmetic is the word of the natural number, below `2^31`. -/
theorem colWord (j l : Nat) (hj : j < 123) (hl : l < 8192) :
    IntOp.addi (Scalar.muli (BitVec.ofNat 32 j) 8192#32) (BitVec.ofNat 32 l) = BitVec.ofNat 32 (8192 * j + l) := by
  unfold IntOp.addi Scalar.muli IntOp.muli
  apply BitVec.eq_of_toNat_eq
  simp only [BitVec.toNat_add, BitVec.toNat_mul, BitVec.toNat_ofNat]
  omega

/-- A word below `2^31` compared signed with 1,000,000 compares as a natural number. -/
theorem slt_million (n : Nat) (hn : n < 2147483648) :
    IntOp.cmpi CmpIPredicate.slt (BitVec.ofNat 32 n) 1000000#32 = BitVec.ofBool (decide (n < 1000000)) := by
  unfold IntOp.cmpi
  simp only
  congr 1
  rw [BitVec.slt, BitVec.toInt_eq_toNat_cond, BitVec.toInt_eq_toNat_cond]
  simp only [BitVec.toNat_ofNat]
  have h1 : n % 2 ^ 32 = n := Nat.mod_eq_of_lt (by omega)
  rw [h1]
  by_cases h : n < 1000000 <;> simp [h] <;> omega

/-- A Boolean word selects like an `if`. -/
theorem select_ofBool {α : Type} (b : Bool) (x z : α) : Scalar.select (BitVec.ofBool b) x z = if b then x else z := by
  unfold Scalar.select
  cases b <;> simp

/-- The masked block at an entry: the entry itself where its global column is inside the array, else the word of `-1`. -/
theorem pay3_apply (i : grid0.Coords) (X : Vec F S32x8192 .f32) (y : S32x8192.Idx) :
    k0_pay3 i X y = if 8192 * (i 1).val + (y 1).val < 1000000 then X y else Scalar.ofBits .f32 0xBF800000#32 := by
  have hj : (i 1).val < 123 := (i 1).isLt
  have hl : (y 1).val < 8192 := (y 1).isLt
  unfold k0_pay3
  dsimp only
  unfold select cmpi addi broadcast
  rw [iota_single_apply, colWord _ _ hj hl, slt_million _ (by omega), select_ofBool]
  by_cases h : 8192 * (i 1).val + (y 1).val < 1000000 <;> simp [h] <;> rfl

end Cert.Kernel.Hand

end
-- ==== Proof.BodyK.lean ====
/-
  The kernel body's run, the proof data of its pipeline, and the frame run — at any float instance.

  The grid has 2 × 123 points; point `t` has row-half `i = t / 123` and column tile `j = t % 123`. At every point the
  pipeline fetches the block of 32 rows by 8192 columns of the scores at `(i, j)` — at `j = 122` only the first 576
  columns lie inside the array and the rest of the staging buffer holds words nothing names — and the body computes
  that block's 32 × 5 × 4 tile of counts (`tile`). At `j = 0` it stores the tile into the output's staging buffer;
  at `j ≠ 0` it loads the buffer, adds the tile and stores the sum. The buffer is written back to rows
  `32·i … 32·i + 31` of the result after `j = 122`.

  The tile does not see the unnamed words: the body first replaces every entry whose global column
  `8192·j + l` is not below 1,000,000 by `-1`, and those are exactly the columns past the array's edge. So what the
  output's buffer holds after each point is a function of the array alone (`acc`), by recursion on the point.
-/
import proofs.«123458_j73744588472820_2_alg».proof.Proof.Gen.Kernel.Frame
import proofs.«123458_j73744588472820_2_alg».proof.Proof.Gen.Kernel.Skeleton
import proofs.«123458_j73744588472820_2_alg».proof.Proof.TileK
import proofs.«123458_j73744588472820_2_alg».proof.Proof.MaskK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches, decided over the grid -/

/-- The first branch (store the tile) is taken exactly at the points of column tile 0. -/
theorem hcond1 : ∀ t : Fin cfg0.N, k0_cond1 (grid0.coords t) = 1#1 ↔ t.val % 123 = 0 :=
  (by decide +kernel : ∀ t : Fin grid0.N, k0_cond1 (grid0.coords t) = 1#1 ↔ t.val % 123 = 0)
/-- The second branch (add the tile to what the buffer holds) is taken exactly at the other points. -/
theorem hcond2 : ∀ t : Fin cfg0.N, k0_cond2 (grid0.coords t) = 1#1 ↔ ¬ t.val % 123 = 0 :=
  (by decide +kernel : ∀ t : Fin grid0.N, k0_cond2 (grid0.coords t) = 1#1 ↔ ¬ t.val % 123 = 0)
/-- So at every point the body stores into the output's buffer: the window is idle nowhere. -/
theorem hidle1 : ∀ t : Fin cfg0.N, idle0 1 (grid0.coords t) = false :=
  (by decide +kernel : ∀ t : Fin grid0.N, idle0 1 (grid0.coords t) = false)

/-! ## The body on any staging memrefs -/

/-- One staging buffer of the output window, through which its contents are stated. -/
abbrev VO : View sig .tc .vmem S32x5x4 .f32 := (Memref.whole cc0_stg1_0 : Memref sig .tc .vmem S32x5x4 .f32).view
/-- Each window's current staging memref at point `t`, as the pipeline passes it, and its wholeness. -/
abbrev ms0 (t : Fin cfg0.N) : Memref sig .tc .vmem S32x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x5x4 .f32 := win0_1.stage (cfg0.slots t 1)
abbrev hs1 (t : Fin cfg0.N) : (ms1 t).IsWhole := hstage0_1 ((cfg0.slots t 1).cast nbuf0_1)

set_option maxHeartbeats 1000000 in
/-- At a point of column tile 0: on whole staging memrefs — the input's at contents `x0`, the output's at anything —
    the body runs to the continuation holding the input's as it was and the output's with the pieces `L1` written
    (the one whole store of the tile; the pieces are what the run finds). -/
noncomputable def runFirst (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) :
    { L1 : List (View.Piece (Elt F) S32x5x4 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__hist_kernel i arg2 harg2 arg3 harg3) K } := by
  refine ⟨?_, fun E K => ?run⟩
  case run =>
    simp only [cc0__hist_kernel_eq_skeleton]; unfold cc0__hist_kernel_skel
    unfold owns
    iintro ⟨⟨%f0, %hf0, H0⟩, ⟨%d1, %f1, -, H1⟩, Hk⟩
    obtain rfl := harg2.eq_unread hf0
    sl_exec (disch := first | exact hc1 | exact hc2)
    sl_step
    iapply Hk
    isplitl [H0]
    · iexists _; isplitr; · ipureintro; exact harg2.read_unread _
      iexact H0
    iexists _; iexact H1

set_option maxHeartbeats 1000000 in
/-- At a later column tile: the output's memref holds `xo1`, and the body runs to the continuation with the pieces
    `L1` written over it (the one whole store of `xo1` plus the tile). -/
noncomputable def runLater (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) :
    { L1 : List (View.Piece (Elt F) S32x5x4 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__hist_kernel i arg2 harg2 arg3 harg3) K } := by
  refine ⟨?_, fun E K => ?run⟩
  case run =>
    simp only [cc0__hist_kernel_eq_skeleton]; unfold cc0__hist_kernel_skel
    unfold owns
    iintro ⟨⟨%f0, %hf0, H0⟩, ⟨%f1, %hf1, H1⟩, Hk⟩
    obtain rfl := harg2.eq_unread hf0
    obtain rfl := harg3.eq_unread hf1
    sl_exec (disch := first | exact hc1 | exact hc2)
    sl_step
    iapply Hk
    isplitl [H0]
    · iexists _; isplitr; · ipureintro; exact harg2.read_unread _
      iexact H0
    iexists _; iexact H1

/-! ## What the body leaves in the output's buffer -/

/-- The pieces of the first case cover the output block (one whole store). -/
theorem coverFirst (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) (y : S32x5x4.Idx) :
    ∃ pc ∈ (runFirst c i arg2 harg2 arg3 harg3 hc1 hc2 x0).1, y ∈ pc.1.set :=
  View.cover_of_tiledL (runFirst c i arg2 harg2 arg3 harg3 hc1 hc2 x0).1 S32x5x4.size (by sl_kernel_rfl) y

/-- What the first case leaves in the output's staging buffer: its pieces read back. -/
def outFirst (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) : Vec F S32x5x4 .f32 :=
  VO.read (Elt F) (VO.writes (Elt F) VO.junk (runFirst c i arg2 harg2 arg3 harg3 hc1 hc2 x0).1)

/-- The pieces of the later case cover the output block (one whole store). -/
theorem coverLater (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) (y : S32x5x4.Idx) :
    ∃ pc ∈ (runLater c i arg2 harg2 arg3 harg3 hc1 hc2 x0 xo1).1, y ∈ pc.1.set :=
  View.cover_of_tiledL (runLater c i arg2 harg2 arg3 harg3 hc1 hc2 x0 xo1).1 S32x5x4.size (by sl_kernel_rfl) y

/-- What the later case leaves in the output's staging buffer: its pieces read back. -/
def outLater (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) : Vec F S32x5x4 .f32 :=
  VO.read (Elt F) (VO.writes (Elt F) VO.junk (runLater c i arg2 harg2 arg3 harg3 hc1 hc2 x0 xo1).1)

/-- The previous contents plus the tile: what a later step stores. -/
def step (i : grid0.Coords) (X : Vec F S32x8192 .f32) (prev : Vec F S32x5x4 .f32) : FVec F S32x5x4 .f32 :=
  k0_pay2 (k0_pay5 i X) (k0_pay6 i X) (k0_pay7 i X) (k0_pay8 i X) (k0_pay9 i X) (k0_pay10 i X) prev

theorem outFirst_eq (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) :
    outFirst c i arg2 harg2 arg3 harg3 hc1 hc2 x0 = tile i x0 := by
  have hz3 : (![0, 0, 0] : Fin 3 → Nat) = fun _ => 0 := funext fun a => by fin_cases a <;> rfl
  have hz2 : (![0, 0] : Fin 2 → Nat) = fun _ => 0 := funext fun a => by fin_cases a <;> rfl
  unfold outFirst
  rw [View.read_writes_eq_canon _ _ _ (coverFirst c i arg2 harg2 arg3 harg3 hc1 hc2 x0)]
  unfold runFirst
  dsimp only
  sl_unfold_words
  rw [View.canon_unit_zero hz3]
  simp only [View.readAt_eq_ld, harg2.read_unread, View.ld_unit_zero (S := S32x8192) hz2]
  rfl

theorem outLater_eq (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) :
    outLater c i arg2 harg2 arg3 harg3 hc1 hc2 x0 xo1 = step i x0 xo1 := by
  have hz3 : (![0, 0, 0] : Fin 3 → Nat) = fun _ => 0 := funext fun a => by fin_cases a <;> rfl
  have hz2 : (![0, 0] : Fin 2 → Nat) = fun _ => 0 := funext fun a => by fin_cases a <;> rfl
  unfold outLater
  rw [View.read_writes_eq_canon _ _ _ (coverLater c i arg2 harg2 arg3 harg3 hc1 hc2 x0 xo1)]
  unfold runLater
  dsimp only
  sl_unfold_words
  rw [View.canon_unit_zero hz3]
  simp only [View.readAt_eq_ld, harg2.read_unread, harg3.read_unread, View.ld_unit_zero (S := S32x8192) hz2, View.ld_unit_zero (S := S32x5x4) hz3]
  rfl

/-! ## The tile does not see the words past the array's edge -/

/-- The column tile of point `t`, and its row half. -/
theorem coords1 : ∀ t : Fin cfg0.N, ((grid0.coords t) 1).val = t.val % 123 :=
  (by decide +kernel : ∀ t : Fin grid0.N, ((grid0.coords t) 1).val = t.val % 123)
theorem coords0 : ∀ t : Fin cfg0.N, ((grid0.coords t) 0).val = t.val / 123 :=
  (by decide +kernel : ∀ t : Fin grid0.N, ((grid0.coords t) 0).val = t.val / 123)
/-- The fetch at `t` moves all 32 rows, and of the 8192 columns those inside the array. -/
theorem xsize_rows : ∀ t : Fin cfg0.N, win0_0.xsize (grid0.coords t) 0 = 32 :=
  (by decide +kernel : ∀ t : Fin grid0.N, win0_0.xsize (grid0.coords t) 0 = 32)
theorem xsize_cols : ∀ t : Fin cfg0.N, win0_0.xsize (grid0.coords t) 1 = min 8192 (1000000 - 8192 * (t.val % 123)) :=
  (by decide +kernel : ∀ t : Fin grid0.N, win0_0.xsize (grid0.coords t) 1 = min 8192 (1000000 - 8192 * (t.val % 123)))

/-- An entry of the block is moved by the fetch exactly when its global column is inside the array. -/
theorem moved_iff_valid (t : Fin cfg0.N) (y : S32x8192.Idx) :
    win0_0.moved (grid0.coords t) y = true ↔ 8192 * ((grid0.coords t) 1).val + (y 1).val < 1000000 := by
  have h0 : (y 0).val < 32 := (y 0).isLt
  have h1 : (y 1).val < 8192 := (y 1).isLt
  rw [win0_0.moved_iff, coords1 t]
  constructor
  · intro h
    have := h 1
    rw [xsize_cols t] at this
    omega
  · intro h a
    match a with
    | ⟨0, _⟩ => show (y 0).val < win0_0.xsize (grid0.coords t) 0; rw [xsize_rows t]; exact h0
    | ⟨1, _⟩ => show (y 1).val < win0_0.xsize (grid0.coords t) 1; rw [xsize_cols t]; omega

/-- The masked block is the same whatever the staging buffer holds past the array's edge. -/
theorem pay3_fill (t : Fin cfg0.N) (d d' : S32x8192.Idx → Elt F .f32) (g : (win0_0.xblock (grid0.coords t)).Idx → Elt F .f32) :
    k0_pay3 (grid0.coords t) (win0_0.fill (grid0.coords t) d g) = k0_pay3 (grid0.coords t) (win0_0.fill (grid0.coords t) d' g) := by
  funext y
  rw [pay3_apply, pay3_apply]
  by_cases h : 8192 * ((grid0.coords t) 1).val + (y 1).val < 1000000
  · rw [if_pos h, if_pos h]
    have hm := (moved_iff_valid t y).mpr h
    unfold Window.fill
    rw [dif_pos hm, dif_pos hm]
  · rw [if_neg h, if_neg h]

/-- So is the tile, -/
theorem tile_fill (t : Fin cfg0.N) (d d' : S32x8192.Idx → Elt F .f32) (g : (win0_0.xblock (grid0.coords t)).Idx → Elt F .f32) :
    tile (grid0.coords t) (win0_0.fill (grid0.coords t) d g) = tile (grid0.coords t) (win0_0.fill (grid0.coords t) d' g) := by
  unfold tile k0_pay5 k0_pay6 k0_pay7 k0_pay8 k0_pay9 k0_pay10 k0_pay4
  rw [pay3_fill t d d' g]
/-- and the sum a later step stores. -/
theorem step_fill (t : Fin cfg0.N) (d d' : S32x8192.Idx → Elt F .f32) (g : (win0_0.xblock (grid0.coords t)).Idx → Elt F .f32)
    (prev : Vec F S32x5x4 .f32) :
    step (grid0.coords t) (win0_0.fill (grid0.coords t) d g) prev = step (grid0.coords t) (win0_0.fill (grid0.coords t) d' g) prev := by
  unfold step k0_pay5 k0_pay6 k0_pay7 k0_pay8 k0_pay9 k0_pay10 k0_pay4
  rw [pay3_fill t d d' g]

/-! ## What the output's buffer holds after each point -/

/-- The word the proof puts where a staging buffer's contents are not named. -/
def d₀ : S32x8192.Idx → Elt F .f32 := fun _ => Scalar.ofBits .f32 0#32

/-- The input's block at point `t` as a whole staging buffer: the array's entries where the block lies inside the
    array, `d₀` past its edge. -/
def xblk (c : Dev nD) (t : Fin cfg0.N) : S32x8192.Idx → Elt F .f32 :=
  win0_0.fill (grid0.coords t) d₀ (iblk m c 0 t)

/-- THE ACCUMULATION. What the output's staging buffer holds after the body at position `n`: the tile of the point's
    block at a point of column tile 0, and at any other point what position `n - 1` left plus the tile. -/
def acc (c : Dev nD) : (n : ℕ) → n < cfg0.N → Vec F S32x5x4 .f32
  | 0, hn => tile (grid0.coords ⟨0, hn⟩) (xblk m c ⟨0, hn⟩)
  | n + 1, hn =>
    if (n + 1) % 123 = 0 then tile (grid0.coords ⟨n + 1, hn⟩) (xblk m c ⟨n + 1, hn⟩)
    else step (grid0.coords ⟨n + 1, hn⟩) (xblk m c ⟨n + 1, hn⟩) (acc c n (Nat.lt_of_succ_lt hn))

/-- `acc` at a point of column tile 0. -/
theorem acc_first (c : Dev nD) (t : Fin cfg0.N) (h0 : t.val % 123 = 0) :
    acc m c t.val t.isLt = tile (grid0.coords t) (xblk m c t) := by
  obtain ⟨n, hn⟩ := t
  cases n with
  | zero => exact rfl
  | succ n => exact (if_pos h0).trans rfl

/-- `acc` at a later column tile. -/
theorem acc_later (c : Dev nD) (t : Fin cfg0.N) (h0 : ¬t.val % 123 = 0) :
    acc m c t.val t.isLt = step (grid0.coords t) (xblk m c t) (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the one pipeline on core `c`: the arrays as the region finds them; after the body at point `t`
    the input's buffer at its block (filled out with `d₀`) and the output's at `acc`; the invariant the scoped rest
    and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = xblk m c t := by dsimp only [dats]
theorem after1 (c : Dev nD) (t : Fin cfg0.N) : (dats m 0 c).after 1 t = acc m c t.val t.isLt := by dsimp only [dats]

/-- The input's buffer is fetched at every point: it holds the array's block where the block lies inside the array,
    and whatever the buffer held (`d`) past the edge. -/
theorem before0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]

/-- The output window is idle at no grid coordinates. -/
theorem hidle_all : ∀ i : cfg0.grid.Coords, cfg0.idle 1 i = false :=
  (by decide +kernel : ∀ i : grid0.Coords, idle0 1 i = false)

/-- At a later column tile the output's buffer holds what the body left at the point before: it was not written back
    between (the write-back follows column tile 122 only). -/
theorem before1_later (c : Dev nD) (t : Fin cfg0.N) (h0 : ¬t.val % 123 = 0) (d) :
    (dats m 0 c).before 1 t d = acc m c (t.val - 1) (Nat.lt_of_le_of_lt (Nat.sub_le _ _) t.isLt) := by
  have hN : t.val < 246 := lt_of_lt_of_eq t.isLt (show cfg0.N = 246 from N_0)
  rw [Dat.before_out_kept _ 1 rfl t (by omega) (Bool.eq_false_iff.mpr fun h => by have := (flush0_1 _).mp h; dsimp only at this; omega)
    hidle_all (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns: the input's buffer stated on the part inside the array, the output's at `acc`. -/
def bodyPost (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) ((dats m 0 c).after 0 t))))
    ∗ owns (c : Thread nD τ) (ms1 t) fullShare ((dats m 0 c).after 1 t))

set_option maxHeartbeats 800000 in
/-- The body at any point: the input's memref holds its block, filled out with whatever the buffer held past the
    array's edge; the column tile says which branch runs; at a later tile the output's memref holds what the point
    before left. The run applies, and what it stores is `acc` because the tile ignores the filler. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1,
    show win0_0.cut (grid0.coords t) (xblk m c t) = iblk m c 0 t from win0_0.cut_fill _ _ _]
  by_cases h0 : t.val % 123 = 0
  · rw [acc_first m c t h0]
    iintro ⟨HΦ, Ho, ⟨%d0, H0⟩, ⟨%d1, H1⟩⟩
    iapply ((runFirst c (grid0.coords t) _ _ _ _ ((hcond1 t).mpr h0) (fun h => (hcond2 t).mp h h0)
      (win0_0.fill (grid0.coords t) d0 (iblk m c 0 t))).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    exact (View.read_writes_of_cover _ _ _ _ _ (coverFirst c _ _ _ _ _ _ _ _)).trans
      ((outFirst_eq c _ _ _ _ _ _ _ _).trans (tile_fill t d0 d₀ (iblk m c 0 t)))
  · rw [acc_later m c t h0]
    simp only [before1_later m c t h0]
    iintro ⟨HΦ, Ho, ⟨%d0, H0⟩, ⟨%d1, H1⟩⟩
    iapply ((runLater c (grid0.coords t) _ _ _ _ (fun h => h0 ((hcond1 t).mp h)) ((hcond2 t).mpr h0)
      (win0_0.fill (grid0.coords t) d0 (iblk m c 0 t)) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    exact (View.read_writes_of_cover _ _ _ _ _ (coverLater c _ _ _ _ _ _ _ _ _)).trans
      ((outLater_eq c _ _ _ _ _ _ _ _ _).trans (step_fill t d0 d₀ (iblk m c 0 t) _))

/-- The library's body obligation, at every point: the input window is stated on the part its transfers move, the
    output window is idle nowhere. -/
theorem body_obligation (c : Dev nD) : BodyObligationLoose (dats (F := F) m 0 c) (defs₀ (F := F)) Variants.none () Set.univ := fun t => by
  rw [bigSep_W0, bigSep_W0]
  simp only [hidle1 t]
  exact sound_body m c t

/-! ## The run and the frame -/

set_option backward.isDefEq.respectTransparency.types false in
/-- At the compiled mesh, for any values, from any memory with zero counters: every weakly fair execution of @main on
    the TensorCores terminates, and every final state has the pipeline's arrays at what the library computes from the
    proof data — the output array the written-back `acc` blocks — and every other unscoped buffer at what the host
    lines after the region compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2])
    (hsub := sfx_sub) (hfresh := sfx_fresh) (hkeep := sfx_keeps)
    (hmain := hmain m Variants.none) (hA := A_eq m) (hΦ := fun _ _ => rfl)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.Tile.lean ====
/-
  One grid step's contribution to the histogram, as a pure function of the step's block of scores.

  At the step with column-tile number `j` the body reads a block `X` of 32 rows by 8192 columns, replaces the
  entries whose global column `8192·j + l` is not below 1,000,000 by `-1`, forms `hi = ⌊5·x⌋` and
  `lo = ⌊20·x⌋ - 4·hi` as 32-bit words, builds the five 0/1 masks `hi = h` and the four 0/1 masks `lo = q`, and
  contracts them over the columns: entry `(r, h, q)` of the result is the sum over `l` of the product of the two
  masks at `(r, l)`. `tile i X` is that result, assembled from the body's named pure values.
-/
import proofs.«123458_j73744588472820_2_alg».proof.Proof.Gen.KernelIdeal.Skeleton

noncomputable section

namespace Cert.KernelIdeal.Hand

open Cert.KernelIdeal Cert.KernelIdeal.Gen Idealize.ShloMosaic

variable {F : FTy → Type} [FloatOps F]

/-- The 32 × 5 × 4 counts one step adds, from the step's grid coordinates and its block of scores. -/
def tile (i : grid0.Coords) (X : Vec F S32x8192 .f32) : FVec F S32x5x4 .f32 :=
  k0_pay1 (k0_pay5 i X) (k0_pay6 i X) (k0_pay7 i X) (k0_pay8 i X) (k0_pay9 i X) (k0_pay10 i X)

end Cert.KernelIdeal.Hand

end
-- ==== Proof.Mask.lean ====
/-
  The body's validity mask, read at an entry, at any float instance.

  At the step with column tile `j` the body compares the global column `8192·j + l` of entry `(r, l)` of its block with
  1,000,000, as signed 32-bit words, and keeps the entry where the column is below and puts `-1` elsewhere. With
  `j < 123` and `l < 8192` the column is below `2^31`, so the word arithmetic does not wrap and the signed
  comparison is the comparison of the natural numbers.
-/
import proofs.«123458_j73744588472820_2_alg».proof.Proof.Gen.KernelIdeal.Skeleton
import Idealize.ShloMosaic.Lib.Pipeline.Value

noncomputable section

namespace Cert.KernelIdeal.Hand

open Cert.KernelIdeal Cert.KernelIdeal.Gen Idealize.ShloMosaic

variable {F : FTy → Type} [FloatOps F]

/-- The column word: `j·8192 + l` in 32-bit arithmetic is the word of the natural number, below `2^31`. -/
theorem colWord (j l : Nat) (hj : j < 123) (hl : l < 8192) :
    IntOp.addi (Scalar.muli (BitVec.ofNat 32 j) 8192#32) (BitVec.ofNat 32 l) = BitVec.ofNat 32 (8192 * j + l) := by
  unfold IntOp.addi Scalar.muli IntOp.muli
  apply BitVec.eq_of_toNat_eq
  simp only [BitVec.toNat_add, BitVec.toNat_mul, BitVec.toNat_ofNat]
  omega

/-- A word below `2^31` compared signed with 1,000,000 compares as a natural number. -/
theorem slt_million (n : Nat) (hn : n < 2147483648) :
    IntOp.cmpi CmpIPredicate.slt (BitVec.ofNat 32 n) 1000000#32 = BitVec.ofBool (decide (n < 1000000)) := by
  unfold IntOp.cmpi
  simp only
  congr 1
  rw [BitVec.slt, BitVec.toInt_eq_toNat_cond, BitVec.toInt_eq_toNat_cond]
  simp only [BitVec.toNat_ofNat]
  have h1 : n % 2 ^ 32 = n := Nat.mod_eq_of_lt (by omega)
  rw [h1]
  by_cases h : n < 1000000 <;> simp [h] <;> omega

/-- A Boolean word selects like an `if`. -/
theorem select_ofBool {α : Type} (b : Bool) (x z : α) : Scalar.select (BitVec.ofBool b) x z = if b then x else z := by
  unfold Scalar.select
  cases b <;> simp

/-- The masked block at an entry: the entry itself where its global column is inside the array, else the word of `-1`. -/
theorem pay3_apply (i : grid0.Coords) (X : Vec F S32x8192 .f32) (y : S32x8192.Idx) :
    k0_pay3 i X y = if 8192 * (i 1).val + (y 1).val < 1000000 then X y else Scalar.ofBits .f32 0xBF800000#32 := by
  have hj : (i 1).val < 123 := (i 1).isLt
  have hl : (y 1).val < 8192 := (y 1).isLt
  unfold k0_pay3
  dsimp only
  unfold select cmpi addi broadcast
  rw [iota_single_apply, colWord _ _ hj hl, slt_million _ (by omega), select_ofBool]
  by_cases h : 8192 * (i 1).val + (y 1).val < 1000000 <;> simp [h] <;> rfl

end Cert.KernelIdeal.Hand

end
-- ==== Proof.Body.lean ====
/-
  The kernel body's run, the proof data of its pipeline, and the frame run — at any float instance.

  The grid has 2 × 123 points; point `t` has row-half `i = t / 123` and column tile `j = t % 123`. At every point the
  pipeline fetches the block of 32 rows by 8192 columns of the scores at `(i, j)` — at `j = 122` only the first 576
  columns lie inside the array and the rest of the staging buffer holds words nothing names — and the body computes
  that block's 32 × 5 × 4 tile of counts (`tile`). At `j = 0` it stores the tile into the output's staging buffer;
  at `j ≠ 0` it loads the buffer, adds the tile and stores the sum. The buffer is written back to rows
  `32·i … 32·i + 31` of the result after `j = 122`.

  The tile does not see the unnamed words: the body first replaces every entry whose global column
  `8192·j + l` is not below 1,000,000 by `-1`, and those are exactly the columns past the array's edge. So what the
  output's buffer holds after each point is a function of the array alone (`acc`), by recursion on the point.
-/
import proofs.«123458_j73744588472820_2_alg».proof.Proof.Gen.KernelIdeal.Frame
import proofs.«123458_j73744588472820_2_alg».proof.Proof.Gen.KernelIdeal.Skeleton
import proofs.«123458_j73744588472820_2_alg».proof.Proof.Tile
import proofs.«123458_j73744588472820_2_alg».proof.Proof.Mask
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches, decided over the grid -/

/-- The first branch (store the tile) is taken exactly at the points of column tile 0. -/
theorem hcond1 : ∀ t : Fin cfg0.N, k0_cond1 (grid0.coords t) = 1#1 ↔ t.val % 123 = 0 :=
  (by decide +kernel : ∀ t : Fin grid0.N, k0_cond1 (grid0.coords t) = 1#1 ↔ t.val % 123 = 0)
/-- The second branch (add the tile to what the buffer holds) is taken exactly at the other points. -/
theorem hcond2 : ∀ t : Fin cfg0.N, k0_cond2 (grid0.coords t) = 1#1 ↔ ¬ t.val % 123 = 0 :=
  (by decide +kernel : ∀ t : Fin grid0.N, k0_cond2 (grid0.coords t) = 1#1 ↔ ¬ t.val % 123 = 0)
/-- So at every point the body stores into the output's buffer: the window is idle nowhere. -/
theorem hidle1 : ∀ t : Fin cfg0.N, idle0 1 (grid0.coords t) = false :=
  (by decide +kernel : ∀ t : Fin grid0.N, idle0 1 (grid0.coords t) = false)

/-! ## The body on any staging memrefs -/

/-- One staging buffer of the output window, through which its contents are stated. -/
abbrev VO : View sig .tc .vmem S32x5x4 .f32 := (Memref.whole cc0_stg1_0 : Memref sig .tc .vmem S32x5x4 .f32).view
/-- Each window's current staging memref at point `t`, as the pipeline passes it, and its wholeness. -/
abbrev ms0 (t : Fin cfg0.N) : Memref sig .tc .vmem S32x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x5x4 .f32 := win0_1.stage (cfg0.slots t 1)
abbrev hs1 (t : Fin cfg0.N) : (ms1 t).IsWhole := hstage0_1 ((cfg0.slots t 1).cast nbuf0_1)

set_option maxHeartbeats 1000000 in
/-- At a point of column tile 0: on whole staging memrefs — the input's at contents `x0`, the output's at anything —
    the body runs to the continuation holding the input's as it was and the output's with the pieces `L1` written
    (the one whole store of the tile; the pieces are what the run finds). -/
noncomputable def runFirst (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) :
    { L1 : List (View.Piece (Elt F) S32x5x4 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__hist_kernel i arg2 harg2 arg3 harg3) K } := by
  refine ⟨?_, fun E K => ?run⟩
  case run =>
    simp only [cc0__hist_kernel_eq_skeleton]; unfold cc0__hist_kernel_skel
    unfold owns
    iintro ⟨⟨%f0, %hf0, H0⟩, ⟨%d1, %f1, -, H1⟩, Hk⟩
    obtain rfl := harg2.eq_unread hf0
    sl_exec (disch := first | exact hc1 | exact hc2)
    sl_step
    iapply Hk
    isplitl [H0]
    · iexists _; isplitr; · ipureintro; exact harg2.read_unread _
      iexact H0
    iexists _; iexact H1

set_option maxHeartbeats 1000000 in
/-- At a later column tile: the output's memref holds `xo1`, and the body runs to the continuation with the pieces
    `L1` written over it (the one whole store of `xo1` plus the tile). -/
noncomputable def runLater (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) :
    { L1 : List (View.Piece (Elt F) S32x5x4 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__hist_kernel i arg2 harg2 arg3 harg3) K } := by
  refine ⟨?_, fun E K => ?run⟩
  case run =>
    simp only [cc0__hist_kernel_eq_skeleton]; unfold cc0__hist_kernel_skel
    unfold owns
    iintro ⟨⟨%f0, %hf0, H0⟩, ⟨%f1, %hf1, H1⟩, Hk⟩
    obtain rfl := harg2.eq_unread hf0
    obtain rfl := harg3.eq_unread hf1
    sl_exec (disch := first | exact hc1 | exact hc2)
    sl_step
    iapply Hk
    isplitl [H0]
    · iexists _; isplitr; · ipureintro; exact harg2.read_unread _
      iexact H0
    iexists _; iexact H1

/-! ## What the body leaves in the output's buffer -/

/-- The pieces of the first case cover the output block (one whole store). -/
theorem coverFirst (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) (y : S32x5x4.Idx) :
    ∃ pc ∈ (runFirst c i arg2 harg2 arg3 harg3 hc1 hc2 x0).1, y ∈ pc.1.set :=
  View.cover_of_tiledL (runFirst c i arg2 harg2 arg3 harg3 hc1 hc2 x0).1 S32x5x4.size (by sl_kernel_rfl) y

/-- What the first case leaves in the output's staging buffer: its pieces read back. -/
def outFirst (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) : Vec F S32x5x4 .f32 :=
  VO.read (Elt F) (VO.writes (Elt F) VO.junk (runFirst c i arg2 harg2 arg3 harg3 hc1 hc2 x0).1)

/-- The pieces of the later case cover the output block (one whole store). -/
theorem coverLater (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) (y : S32x5x4.Idx) :
    ∃ pc ∈ (runLater c i arg2 harg2 arg3 harg3 hc1 hc2 x0 xo1).1, y ∈ pc.1.set :=
  View.cover_of_tiledL (runLater c i arg2 harg2 arg3 harg3 hc1 hc2 x0 xo1).1 S32x5x4.size (by sl_kernel_rfl) y

/-- What the later case leaves in the output's staging buffer: its pieces read back. -/
def outLater (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) : Vec F S32x5x4 .f32 :=
  VO.read (Elt F) (VO.writes (Elt F) VO.junk (runLater c i arg2 harg2 arg3 harg3 hc1 hc2 x0 xo1).1)

/-- The previous contents plus the tile: what a later step stores. -/
def step (i : grid0.Coords) (X : Vec F S32x8192 .f32) (prev : Vec F S32x5x4 .f32) : FVec F S32x5x4 .f32 :=
  k0_pay2 (k0_pay5 i X) (k0_pay6 i X) (k0_pay7 i X) (k0_pay8 i X) (k0_pay9 i X) (k0_pay10 i X) prev

theorem outFirst_eq (c : Dev nD) (i : grid0.Coords) (arg2 : Memref sig .tc .vmem S32x8192 .f32) (harg2 : arg2.IsWhole)
    (arg3 : Memref sig .tc .vmem S32x5x4 .f32) (harg3 : arg3.IsWhole) (hc1 : k0_cond1 i = 1#1) (hc2 : ¬ k0_cond2 i = 1#1)
    (x0 : Vec F S32x8192 .f32) :
    outFirst c i arg2 harg2 arg3 harg3 hc1 hc2 x0 = tile i x0 := by
  have hz3 : (![0, 0, 0] : Fin 3 → Nat) = fun _ => 0 := funext fun a => by fin_cases a <;> rfl
  have hz2 : (![0, 0] : Fin 2 → Nat) = fun _ => 0 := funext fun a => by fin_cases a <;> rfl
  unfold outFirst
  rw [View.read_writes_eq_canon _ _ _ (coverFirst c i arg2 harg2 arg3 harg3 hc1 hc2 x0)]
  unfold runFirst
  dsimp only
  sl_unfold_words
  rw [View.canon_unit_zero hz3]
  simp only [View.readAt_eq_ld, harg2.read_unread, View.ld_unit_zero (S := S32x8192) hz2]
  rfl

theorem outLater_eq (c : Dev nD) (i : grid0.Coords) (arg2 : Memref sig .tc .vmem S32x8192 .f32) (harg2 : arg2.IsWhole)
    (arg3 : Memref sig .tc .vmem S32x5x4 .f32) (harg3 : arg3.IsWhole) (hc1 : ¬ k0_cond1 i = 1#1) (hc2 : k0_cond2 i = 1#1)
    (x0 : Vec F S32x8192 .f32) (xo1 : Vec F S32x5x4 .f32) :
    outLater c i arg2 harg2 arg3 harg3 hc1 hc2 x0 xo1 = step i x0 xo1 := by
  have hz3 : (![0, 0, 0] : Fin 3 → Nat) = fun _ => 0 := funext fun a => by fin_cases a <;> rfl
  have hz2 : (![0, 0] : Fin 2 → Nat) = fun _ => 0 := funext fun a => by fin_cases a <;> rfl
  unfold outLater
  rw [View.read_writes_eq_canon _ _ _ (coverLater c i arg2 harg2 arg3 harg3 hc1 hc2 x0 xo1)]
  unfold runLater
  dsimp only
  sl_unfold_words
  rw [View.canon_unit_zero hz3]
  simp only [View.readAt_eq_ld, harg2.read_unread, harg3.read_unread, View.ld_unit_zero (S := S32x8192) hz2, View.ld_unit_zero (S := S32x5x4) hz3]
  rfl

/-! ## The tile does not see the words past the array's edge -/

/-- The column tile of point `t`, and its row half. -/
theorem coords1 : ∀ t : Fin cfg0.N, ((grid0.coords t) 1).val = t.val % 123 :=
  (by decide +kernel : ∀ t : Fin grid0.N, ((grid0.coords t) 1).val = t.val % 123)
theorem coords0 : ∀ t : Fin cfg0.N, ((grid0.coords t) 0).val = t.val / 123 :=
  (by decide +kernel : ∀ t : Fin grid0.N, ((grid0.coords t) 0).val = t.val / 123)
/-- The fetch at `t` moves all 32 rows, and of the 8192 columns those inside the array. -/
theorem xsize_rows : ∀ t : Fin cfg0.N, win0_0.xsize (grid0.coords t) 0 = 32 :=
  (by decide +kernel : ∀ t : Fin grid0.N, win0_0.xsize (grid0.coords t) 0 = 32)
theorem xsize_cols : ∀ t : Fin cfg0.N, win0_0.xsize (grid0.coords t) 1 = min 8192 (1000000 - 8192 * (t.val % 123)) :=
  (by decide +kernel : ∀ t : Fin grid0.N, win0_0.xsize (grid0.coords t) 1 = min 8192 (1000000 - 8192 * (t.val % 123)))

/-- An entry of the block is moved by the fetch exactly when its global column is inside the array. -/
theorem moved_iff_valid (t : Fin cfg0.N) (y : S32x8192.Idx) :
    win0_0.moved (grid0.coords t) y = true ↔ 8192 * ((grid0.coords t) 1).val + (y 1).val < 1000000 := by
  have h0 : (y 0).val < 32 := (y 0).isLt
  have h1 : (y 1).val < 8192 := (y 1).isLt
  rw [win0_0.moved_iff, coords1 t]
  constructor
  · intro h
    have := h 1
    rw [xsize_cols t] at this
    omega
  · intro h a
    match a with
    | ⟨0, _⟩ => show (y 0).val < win0_0.xsize (grid0.coords t) 0; rw [xsize_rows t]; exact h0
    | ⟨1, _⟩ => show (y 1).val < win0_0.xsize (grid0.coords t) 1; rw [xsize_cols t]; omega

/-- The masked block is the same whatever the staging buffer holds past the array's edge. -/
theorem pay3_fill (t : Fin cfg0.N) (d d' : S32x8192.Idx → Elt F .f32) (g : (win0_0.xblock (grid0.coords t)).Idx → Elt F .f32) :
    k0_pay3 (grid0.coords t) (win0_0.fill (grid0.coords t) d g) = k0_pay3 (grid0.coords t) (win0_0.fill (grid0.coords t) d' g) := by
  funext y
  rw [pay3_apply, pay3_apply]
  by_cases h : 8192 * ((grid0.coords t) 1).val + (y 1).val < 1000000
  · rw [if_pos h, if_pos h]
    have hm := (moved_iff_valid t y).mpr h
    unfold Window.fill
    rw [dif_pos hm, dif_pos hm]
  · rw [if_neg h, if_neg h]

/-- So is the tile, -/
theorem tile_fill (t : Fin cfg0.N) (d d' : S32x8192.Idx → Elt F .f32) (g : (win0_0.xblock (grid0.coords t)).Idx → Elt F .f32) :
    tile (grid0.coords t) (win0_0.fill (grid0.coords t) d g) = tile (grid0.coords t) (win0_0.fill (grid0.coords t) d' g) := by
  unfold tile k0_pay5 k0_pay6 k0_pay7 k0_pay8 k0_pay9 k0_pay10 k0_pay4
  rw [pay3_fill t d d' g]
/-- and the sum a later step stores. -/
theorem step_fill (t : Fin cfg0.N) (d d' : S32x8192.Idx → Elt F .f32) (g : (win0_0.xblock (grid0.coords t)).Idx → Elt F .f32)
    (prev : Vec F S32x5x4 .f32) :
    step (grid0.coords t) (win0_0.fill (grid0.coords t) d g) prev = step (grid0.coords t) (win0_0.fill (grid0.coords t) d' g) prev := by
  unfold step k0_pay5 k0_pay6 k0_pay7 k0_pay8 k0_pay9 k0_pay10 k0_pay4
  rw [pay3_fill t d d' g]

/-! ## What the output's buffer holds after each point -/

/-- The word the proof puts where a staging buffer's contents are not named. -/
def d₀ : S32x8192.Idx → Elt F .f32 := fun _ => Scalar.ofBits .f32 0#32

/-- The input's block at point `t` as a whole staging buffer: the array's entries where the block lies inside the
    array, `d₀` past its edge. -/
def xblk (c : Dev nD) (t : Fin cfg0.N) : S32x8192.Idx → Elt F .f32 :=
  win0_0.fill (grid0.coords t) d₀ (iblk m c 0 t)

/-- THE ACCUMULATION. What the output's staging buffer holds after the body at position `n`: the tile of the point's
    block at a point of column tile 0, and at any other point what position `n - 1` left plus the tile. -/
def acc (c : Dev nD) : (n : ℕ) → n < cfg0.N → Vec F S32x5x4 .f32
  | 0, hn => tile (grid0.coords ⟨0, hn⟩) (xblk m c ⟨0, hn⟩)
  | n + 1, hn =>
    if (n + 1) % 123 = 0 then tile (grid0.coords ⟨n + 1, hn⟩) (xblk m c ⟨n + 1, hn⟩)
    else step (grid0.coords ⟨n + 1, hn⟩) (xblk m c ⟨n + 1, hn⟩) (acc c n (Nat.lt_of_succ_lt hn))

/-- `acc` at a point of column tile 0. -/
theorem acc_first (c : Dev nD) (t : Fin cfg0.N) (h0 : t.val % 123 = 0) :
    acc m c t.val t.isLt = tile (grid0.coords t) (xblk m c t) := by
  obtain ⟨n, hn⟩ := t
  cases n with
  | zero => exact rfl
  | succ n => exact (if_pos h0).trans rfl

/-- `acc` at a later column tile. -/
theorem acc_later (c : Dev nD) (t : Fin cfg0.N) (h0 : ¬t.val % 123 = 0) :
    acc m c t.val t.isLt = step (grid0.coords t) (xblk m c t) (acc m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of the one pipeline on core `c`: the arrays as the region finds them; after the body at point `t`
    the input's buffer at its block (filled out with `d₀`) and the output's at `acc`; the invariant the scoped rest
    and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = xblk m c t := by dsimp only [dats]
theorem after1 (c : Dev nD) (t : Fin cfg0.N) : (dats m 0 c).after 1 t = acc m c t.val t.isLt := by dsimp only [dats]

/-- The input's buffer is fetched at every point: it holds the array's block where the block lies inside the array,
    and whatever the buffer held (`d`) past the edge. -/
theorem before0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]

/-- The output window is idle at no grid coordinates. -/
theorem hidle_all : ∀ i : cfg0.grid.Coords, cfg0.idle 1 i = false :=
  (by decide +kernel : ∀ i : grid0.Coords, idle0 1 i = false)

/-- At a later column tile the output's buffer holds what the body left at the point before: it was not written back
    between (the write-back follows column tile 122 only). -/
theorem before1_later (c : Dev nD) (t : Fin cfg0.N) (h0 : ¬t.val % 123 = 0) (d) :
    (dats m 0 c).before 1 t d = acc m c (t.val - 1) (Nat.lt_of_le_of_lt (Nat.sub_le _ _) t.isLt) := by
  have hN : t.val < 246 := lt_of_lt_of_eq t.isLt (show cfg0.N = 246 from N_0)
  rw [Dat.before_out_kept _ 1 rfl t (by omega) (Bool.eq_false_iff.mpr fun h => by have := (flush0_1 _).mp h; dsimp only at this; omega)
    hidle_all (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns: the input's buffer stated on the part inside the array, the output's at `acc`. -/
def bodyPost (c : Dev nD) (t : Fin cfg0.N) : sProp 𝕄 :=
  iprop((dats m 0 c).Φ t.succ ∗ (dats m 0 c).owesAt () t.succ
    ∗ (∃ d, owns (c : Thread nD τ) (ms0 t) fullShare
        (win0_0.fill (grid0.coords t) d (win0_0.cut (grid0.coords t) ((dats m 0 c).after 0 t))))
    ∗ owns (c : Thread nD τ) (ms1 t) fullShare ((dats m 0 c).after 1 t))

set_option maxHeartbeats 800000 in
/-- The body at any point: the input's memref holds its block, filled out with whatever the buffer held past the
    array's edge; the column tile says which branch runs; at a later tile the output's memref holds what the point
    before left. The run applies, and what it stores is `acc` because the tile ignores the filler. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1,
    show win0_0.cut (grid0.coords t) (xblk m c t) = iblk m c 0 t from win0_0.cut_fill _ _ _]
  by_cases h0 : t.val % 123 = 0
  · rw [acc_first m c t h0]
    iintro ⟨HΦ, Ho, ⟨%d0, H0⟩, ⟨%d1, H1⟩⟩
    iapply ((runFirst c (grid0.coords t) _ _ _ _ ((hcond1 t).mpr h0) (fun h => (hcond2 t).mp h h0)
      (win0_0.fill (grid0.coords t) d0 (iblk m c 0 t))).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    exact (View.read_writes_of_cover _ _ _ _ _ (coverFirst c _ _ _ _ _ _ _ _)).trans
      ((outFirst_eq c _ _ _ _ _ _ _ _).trans (tile_fill t d0 d₀ (iblk m c 0 t)))
  · rw [acc_later m c t h0]
    simp only [before1_later m c t h0]
    iintro ⟨HΦ, Ho, ⟨%d0, H0⟩, ⟨%d1, H1⟩⟩
    iapply ((runLater c (grid0.coords t) _ _ _ _ (fun h => h0 ((hcond1 t).mp h)) ((hcond2 t).mpr h0)
      (win0_0.fill (grid0.coords t) d0 (iblk m c 0 t)) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    exact (View.read_writes_of_cover _ _ _ _ _ (coverLater c _ _ _ _ _ _ _ _ _)).trans
      ((outLater_eq c _ _ _ _ _ _ _ _ _).trans (step_fill t d0 d₀ (iblk m c 0 t) _))

/-- The library's body obligation, at every point: the input window is stated on the part its transfers move, the
    output window is idle nowhere. -/
theorem body_obligation (c : Dev nD) : BodyObligationLoose (dats (F := F) m 0 c) (defs₀ (F := F)) Variants.none () Set.univ := fun t => by
  rw [bigSep_W0, bigSep_W0]
  simp only [hidle1 t]
  exact sound_body m c t

/-! ## The run and the frame -/

set_option backward.isDefEq.respectTransparency.types false in
/-- At the compiled mesh, for any values, from any memory with zero counters: every weakly fair execution of @main on
    the TensorCores terminates, and every final state has the pipeline's arrays at what the library computes from the
    proof data — the output array the written-back `acc` blocks — and every other unscoped buffer at what the host
    lines after the region compute from those. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2])
    (hsub := sfx_sub) (hfresh := sfx_fresh) (hkeep := sfx_keeps)
    (hmain := hmain m Variants.none) (hA := A_eq m) (hΦ := fun _ _ => rfl)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The histogram both programs compute, as one function of the score array.

  A score `v` falls in bin `⌊20·v⌋`. Both programs form that integer in the same way: the product with the
  word of `20.0`, the floor, and the conversion to a 32-bit word (`binW`). For a score in `[0, 1)` the word
  is one of `0, …, 19`. `count x b k` is the number of columns `l` of row `b` whose score falls in bin `k`,
  written as a sum of zeros and ones over the extended reals. That is the form both sides reach: the kernel
  sums products of two 0/1 masks over the columns, and the reference adds a one for every position of the
  flattened array whose segment id `20·b' + bin` is the slot `20·b + k`.
-/
import Idealize.ShloMosaic.PureOps.Ideal
import Idealize.ShloMosaic.Lib.ValueIdx

noncomputable section

namespace Cert.Hist

open Idealize.ShloMosaic Idealize.ShloMosaic.ValueIdx

/-- The scores' shape: 64 rows of 1,000,000 columns. -/
abbrev SX : Shape := ⟨2, ![64, 1000000]⟩

/-- Every score is a real number in `[0, 1)`. -/
def InUnit (x : SX.Idx → EReal) : Prop := ∀ i, ∃ r : ℝ, x i = (r : EReal) ∧ 0 ≤ r ∧ r < 1

/-- The bin of a score as a 32-bit word: `⌊20·v⌋`. -/
def binW (v : EReal) : BitVec 32 :=
  Ideal.fptosi 32 (Ideal.liftRound Int.floor (v * Ideal.ofBits .f32 0x41A00000#32))

/-- How many columns of row `b` fall in bin `k`. -/
def count (x : SX.Idx → EReal) (b : Fin 64) (k : Fin 20) : EReal :=
  ∑ l : Fin 1000000, if binW (x (ix2 b l)) = BitVec.ofNat 32 k.val then 1 else 0

end Cert.Hist

end
-- ==== Proof.RangeSum.lean ====
/-
  Sums over the columns, tile by tile.

  A row's count is a sum over its 1,000,000 columns. The kernel visits the columns in 123 tiles of 8192, the last
  of which overhangs the row by 7616 columns where nothing is counted. `hit x b k n` is the summand at column `n` —
  one if `n` is a column of the array and the score there falls in bin `k`, zero otherwise, zero in particular past
  the edge — so the sum over the first `8192·(j+1)` naturals is what the tiles `0 … j` have counted, it grows by one
  tile's sum per step, and after the last tile it is the row's count.
-/
import proofs.«123458_j73744588472820_2_alg».proof.Proof.Spec
import Mathlib.Algebra.BigOperators.Intervals

noncomputable section

namespace Cert.Hist

open Idealize.ShloMosaic Idealize.ShloMosaic.ValueIdx

/-- The summand at column `n` of row `b` for bin `k`: one where the column is inside the array and the score's bin
    is `k`, else zero. -/
def hit (x : SX.Idx → EReal) (b : Fin 64) (k : ℕ) (n : ℕ) : EReal :=
  if hn : n < 1000000 then (if binW (x (ix2 b ⟨n, hn⟩)) = BitVec.ofNat 32 k then 1 else 0) else 0

theorem hit_of_ge (x : SX.Idx → EReal) (b : Fin 64) (k : ℕ) {n : ℕ} (hn : 1000000 ≤ n) : hit x b k n = 0 := by
  unfold hit; rw [dif_neg (by omega)]

/-- A row's count is the sum of its summands over the first 1,000,000 naturals. -/
theorem count_eq_range (x : SX.Idx → EReal) (b : Fin 64) (k : Fin 20) :
    count x b k = ∑ n ∈ Finset.range 1000000, hit x b k.val n := by
  rw [Finset.sum_range]
  unfold count
  refine Finset.sum_congr rfl fun l _ => ?_
  unfold hit
  rw [dif_pos l.isLt]

/-- One more tile: the sum over the first `8192·(j+1)` naturals is the sum over the first `8192·j` plus the tile's. -/
theorem range_step (f : ℕ → EReal) (j : ℕ) :
    ∑ n ∈ Finset.range (8192 * (j + 1)), f n = ∑ n ∈ Finset.range (8192 * j), f n + ∑ l ∈ Finset.range 8192, f (8192 * j + l) := by
  rw [show 8192 * (j + 1) = 8192 * j + 8192 by ring, Finset.sum_range_add]

/-- After the last tile: summands that vanish from 1,000,000 on sum over the 123 tiles to their sum over the row. -/
theorem range_tiles (f : ℕ → EReal) (hf : ∀ n, 1000000 ≤ n → f n = 0) :
    ∑ n ∈ Finset.range (8192 * 123), f n = ∑ n ∈ Finset.range 1000000, f n := by
  rw [show 8192 * 123 = 1000000 + 7616 by norm_num, Finset.sum_range_add]
  rw [Finset.sum_eq_zero (fun l _ => hf _ (Nat.le_add_right _ _)), add_zero]

end Cert.Hist

end
-- ==== Proof.Layout.lean ====
/-
  The histogram in the result array's layout.

  The kernel's result is a [64, 5, 4] array whose entry `(b, h, q)` is row `b`'s count in bin `4h + q`; flattened
  row-major to [64, 20] its entry `(b, k)` is the count in bin `k`, because `k = 4·(k / 4) + k % 4`.
-/
import proofs.«123458_j73744588472820_2_alg».proof.Proof.Spec

noncomputable section

namespace Cert.Hist

open Idealize.ShloMosaic Idealize.ShloMosaic.ValueIdx

/-- The result array's shape. -/
abbrev SR : Shape := ⟨3, ![64, 5, 4]⟩

/-- The histogram in the result array's layout: entry `(b, h, q)` is row `b`'s count in bin `4h + q`. -/
def G (x : SX.Idx → EReal) : SR.Idx → EReal := fun i =>
  count x (i 0) ⟨4 * (i 1).val + (i 2).val, by
    have h1 : (i 1).val < 5 := (i 1).isLt
    have h2 : (i 2).val < 4 := (i 2).isLt
    omega⟩

/-- The layout at an index: the row is the first coordinate, the bin four times the second plus the third. -/
theorem G_apply (x : SX.Idx → EReal) (i : SR.Idx) (hk : 4 * (i 1).val + (i 2).val < 20) :
    G x i = count x (i 0) ⟨4 * (i 1).val + (i 2).val, hk⟩ := rfl

/-- Equal row and bin numbers give the same count. -/
theorem count_congr (x : SX.Idx → EReal) (b b' : Fin 64) (k k' : Fin 20) (hb : b.val = b'.val) (hk : k.val = k'.val) :
    count x b k = count x b' k' := by
  obtain rfl := Fin.ext hb
  obtain rfl := Fin.ext hk
  rfl

/-- A count is the layout's entry whose row is the count's row and whose last two coordinates spell its bin. -/
theorem count_at (x : SX.Idx → EReal) (E : SR.Idx) (B : Fin 64) (K : Fin 20)
    (hb : B.val = (E 0).val) (hk : K.val = 4 * (E 1).val + (E 2).val) : count x B K = G x E := by
  have hE : 4 * (E 1).val + (E 2).val < 20 := hk ▸ K.isLt
  rw [G_apply x E hE]
  exact count_congr x B (E 0) K ⟨4 * (E 1).val + (E 2).val, hE⟩ hb hk

end Cert.Hist

end
-- ==== Proof.DigitSplit.lean ====
/-
  The digit-split law, as pure arithmetic of real numbers and 32-bit words.

  For a real score `v` in `[0, 1)` put `H = ⌊5·v⌋` and `B = ⌊20·v⌋`. Then `H` is one of `0, …, 4`, and from
  `H ≤ 5·v < H + 1` follows `4·H ≤ 20·v < 4·H + 4`, so `4·H ≤ B < 4·H + 4`: the low digit `B - 4·H` is one of
  `0, …, 3`. Hence for `h < 5` and `q < 4` the two conditions "`H = h` and `B - 4·H = q`" and "`B = 4·h + q`" are the
  same. The words here are the conversions of the floors to 32 bits (truncating and clamping, which changes nothing at
  values this small), and the subtraction and the product by four are the 32-bit ones, with no wrap-around.

  For the score `-1` the high digit is `⌊-5⌋ = -5`, whose word equals the word of no `h < 5`.
-/
import proofs.«123458_j73744588472820_2_alg».proof.Proof.Spec

noncomputable section

namespace Cert.KernelIdeal.Hand

open Idealize.ShloMosaic

/-! ## The three constants -/

/-- The pattern `0x40A00000` denotes five. -/
theorem ofBits_five : Ideal.ofBits .f32 0x40A00000#32 = ((5 : ℝ) : EReal) := by
  simp [Ideal.ofBits, Ideal.ieee, -EReal.coe_mul]; norm_num

/-- The pattern `0x41A00000` denotes twenty. -/
theorem ofBits_twenty : Ideal.ofBits .f32 0x41A00000#32 = ((20 : ℝ) : EReal) := by
  simp [Ideal.ofBits, Ideal.ieee, -EReal.coe_mul]; norm_num

/-- The pattern `0xBF800000` denotes minus one. -/
theorem ofBits_negOne : Ideal.ofBits .f32 0xBF800000#32 = ((-1 : ℝ) : EReal) := by
  simp [Ideal.ofBits, Ideal.ieee, -EReal.coe_mul]; norm_num

/-! ## The conversion of an integer-valued real to a word -/

/-- An integer inside the signed 32-bit range converts to its own word: truncation and clamping change nothing. -/
theorem fptosi_intCast (n : ℤ) (h1 : -2 ^ 31 ≤ n) (h2 : n < 2 ^ 31) :
    Ideal.fptosi 32 (((n : ℝ)) : EReal) = BitVec.ofInt 32 n := by
  unfold Ideal.fptosi
  rw [Ideal.toIntClamped_coe]
  congr 1
  simp only [Int.floor_intCast, Int.ceil_intCast, ite_self]
  norm_num
  omega

/-- The word of a natural number, through the integers. -/
theorem ofInt_natCast (n : ℕ) : BitVec.ofInt 32 (n : ℤ) = BitVec.ofNat 32 n := by
  simp

/-! ## The two digits as words -/

/-- The high digit of a score as a 32-bit word: `⌊5·x⌋`. -/
def hiW (x : EReal) : BitVec 32 :=
  Ideal.fptosi 32 (Ideal.liftRound Int.floor (x * Ideal.ofBits .f32 0x40A00000#32))

/-- The low digit of a score as a 32-bit word: `⌊20·x⌋ - 4·⌊5·x⌋`, in 32-bit arithmetic. -/
def loW (x : EReal) : BitVec 32 := IntOp.subi (Cert.Hist.binW x) (IntOp.muli 4#32 (hiW x))

/-- At a real score the high digit is the word of `⌊5·v⌋`. -/
theorem hiW_coe (v : ℝ) : hiW (v : EReal) = Ideal.fptosi 32 (((⌊v * 5⌋ : ℤ) : ℝ) : EReal) := by
  unfold hiW
  rw [ofBits_five, ← EReal.coe_mul, Ideal.liftRound_coe]

/-- At a real score the bin is the word of `⌊20·v⌋`. -/
theorem binW_coe (v : ℝ) : Cert.Hist.binW (v : EReal) = Ideal.fptosi 32 (((⌊v * 20⌋ : ℤ) : ℝ) : EReal) := by
  unfold Cert.Hist.binW
  rw [ofBits_twenty, ← EReal.coe_mul, Ideal.liftRound_coe]

/-! ## The arithmetic -/

/-- The two floors of a score in the unit interval, as natural numbers: `H < 5` and `4·H ≤ B < 4·H + 4`. -/
theorem digits (v : ℝ) (h0 : 0 ≤ v) (h1 : v < 1) :
    ∃ H B : ℕ, ⌊v * 5⌋ = (H : ℤ) ∧ ⌊v * 20⌋ = (B : ℤ) ∧ H < 5 ∧ 4 * H ≤ B ∧ B < 4 * H + 4 := by
  have hH0 : 0 ≤ ⌊v * 5⌋ := Int.floor_nonneg.mpr (by positivity)
  have hB0 : 0 ≤ ⌊v * 20⌋ := Int.floor_nonneg.mpr (by positivity)
  have hH5 : ⌊v * 5⌋ < 5 := Int.floor_lt.mpr (by push_cast; linarith)
  have hle : (⌊v * 5⌋ : ℝ) ≤ v * 5 := Int.floor_le _
  have hlt : v * 5 < (⌊v * 5⌋ : ℝ) + 1 := Int.lt_floor_add_one _
  have hlo : 4 * ⌊v * 5⌋ ≤ ⌊v * 20⌋ := Int.le_floor.mpr (by push_cast; linarith)
  have hhi : ⌊v * 20⌋ < 4 * ⌊v * 5⌋ + 4 := Int.floor_lt.mpr (by push_cast; linarith)
  refine ⟨⌊v * 5⌋.toNat, ⌊v * 20⌋.toNat, (Int.toNat_of_nonneg hH0).symm, (Int.toNat_of_nonneg hB0).symm, ?_, ?_, ?_⟩ <;> omega

/-- Two naturals below `2 ^ 32` have the same word exactly when they are equal. -/
theorem ofNat_inj_small (a b : ℕ) (ha : a < 2 ^ 32) (hb : b < 2 ^ 32) :
    BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl

/-- The 32-bit difference `B - 4·H` of words is the word of the difference when `4·H ≤ B`. -/
theorem sub_words (H B : ℕ) (hlo : 4 * H ≤ B) :
    IntOp.subi (BitVec.ofNat 32 B) (IntOp.muli 4#32 (BitVec.ofNat 32 H)) = BitVec.ofNat 32 (B - 4 * H) := by
  have e : BitVec.ofNat 32 B = BitVec.ofNat 32 (B - 4 * H) + 4#32 * BitVec.ofNat 32 H := by
    rw [show (4#32 : BitVec 32) = BitVec.ofNat 32 4 from rfl, ← BitVec.ofNat_mul, ← BitVec.ofNat_add]
    congr 1; omega
  show BitVec.ofNat 32 B - 4#32 * BitVec.ofNat 32 H = _
  rw [e, BitVec.add_sub_cancel]

/-- The digit-split law on words of small naturals. -/
theorem words_iff (H B h q : ℕ) (hH : H < 5) (hlo : 4 * H ≤ B) (hhi : B < 4 * H + 4) (hh : h < 5) (hq : q < 4) :
    (BitVec.ofNat 32 H = BitVec.ofNat 32 h
        ∧ IntOp.subi (BitVec.ofNat 32 B) (IntOp.muli 4#32 (BitVec.ofNat 32 H)) = BitVec.ofNat 32 q)
      ↔ BitVec.ofNat 32 B = BitVec.ofNat 32 (4 * h + q) := by
  rw [sub_words H B hlo, ofNat_inj_small H h (by omega) (by omega), ofNat_inj_small (B - 4 * H) q (by omega) (by omega),
    ofNat_inj_small B (4 * h + q) (by omega) (by omega)]
  omega

/-! ## The law -/

/-- **The digit-split law.** For a real score in `[0, 1)`, a high digit `h < 5` and a low digit `q < 4`: the score's high
    digit is `h` and its low digit is `q` exactly when its bin is `4·h + q`. -/
theorem digit_split (v : ℝ) (h0 : 0 ≤ v) (h1 : v < 1) (h : Fin 5) (q : Fin 4) :
    (hiW (v : EReal) = BitVec.ofNat 32 h.val ∧ loW (v : EReal) = BitVec.ofNat 32 q.val)
      ↔ Cert.Hist.binW (v : EReal) = BitVec.ofNat 32 (4 * h.val + q.val) := by
  obtain ⟨H, B, eH, eB, hH, hlo, hhi⟩ := digits v h0 h1
  have hHw : hiW (v : EReal) = BitVec.ofNat 32 H := by
    rw [hiW_coe, eH, fptosi_intCast _ (by omega) (by omega), ofInt_natCast]
  have hBw : Cert.Hist.binW (v : EReal) = BitVec.ofNat 32 B := by
    rw [binW_coe, eB, fptosi_intCast _ (by omega) (by omega), ofInt_natCast]
  unfold loW
  rw [hHw, hBw]
  exact words_iff H B h.val q.val hH hlo hhi h.isLt q.isLt

/-- The score `-1` has high digit `⌊-5⌋ = -5`, the word of no `h < 5`. -/
theorem hiW_negOne (h : Fin 5) : hiW (((-1 : ℝ)) : EReal) ≠ BitVec.ofNat 32 h.val := by
  rw [hiW_coe, show ⌊(-1 : ℝ) * 5⌋ = -5 by norm_num, fptosi_intCast _ (by norm_num) (by norm_num)]
  intro e
  have := congrArg BitVec.toNat e
  simp only [BitVec.toNat_ofNat, BitVec.toNat_ofInt] at this
  have hh := h.isLt
  omega

end Cert.KernelIdeal.Hand

end
-- ==== Proof.TileCount.lean ====
/-
  One grid step's tile of counts, read at an entry.

  Entry `(r, h, q)` of the tile is the contraction over the 8192 columns `l` of the step's block of the product of two
  0/1 masks at `(r, l)`: "the high digit of the masked score is `h`" and "its low digit is `q`". Where the global column
  `8192·j + l` is inside the array the masked score is the score itself, a real number in `[0, 1)`, and by the
  digit-split law the product of the two masks is the indicator of "the score's bin is `4·h + q`"; where it is outside,
  the masked score is `-1`, whose high digit `-5` is no `h < 5`, and the product is zero. So the entry counts the columns
  of row `r` that are inside the array and whose score falls in bin `4·h + q`.

  The steps: the contraction into the zero accumulator read at an index is the sum over the one contracted coordinate
  of the products of the operands' entries; a concatenation of `[32, 1, 8192]` pieces along the middle axis read at
  `(r, h, l)` is piece `h` at `(r, 0, l)`; the shape cast `[32, 8192] → [32, 1, 8192]` read at `(r, 0, l)` is the operand
  at `(r, l)`; and a mask (equality of words, widened, converted, narrowed) at an entry is `1` or `0`.
-/
import proofs.«123458_j73744588472820_2_alg».proof.Proof.Tile
import proofs.«123458_j73744588472820_2_alg».proof.Proof.Mask
import proofs.«123458_j73744588472820_2_alg».proof.Proof.DigitSplit
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! ## Layout operations at an entry -/

section Layout
variable {α : Type}

/-- The shape cast that inserts a unit middle axis, read at `(r, 0, l)`, is the operand at `(r, l)`. -/
theorem shapeCast_row_apply (v : S32x8192.Idx → α) (hc : S32x8192.ShapeCasts S32x1x8192) (r : Fin 32) (z : Fin 1)
    (l : Fin 8192) : shapeCast S32x1x8192 v hc (ix3 r z l) = v (ix2 r l) := by
  refine shapeCast_apply v hc (ix3 r z l) (ix2 r l) ?_
  rw [Shape.rowMajor_val_three, Shape.rowMajor_val_two]
  show r.val * 8192 + l.val = (r.val * 1 + z.val) * 8192 + l.val
  have := z.isLt
  omega

/-- Five `[32, 1, 8192]` pieces concatenated along the middle axis, read at `(r, h, l)`: piece `h` at `(r, 0, l)`. -/
theorem concat5_apply (x0 x1 x2 x3 x4 : S32x1x8192.Idx → α)
    (hc : Shape.Concatenates [S32x1x8192, S32x1x8192, S32x1x8192, S32x1x8192, S32x1x8192] S32x5x8192 1)
    (r : Fin 32) (h : Fin 5) (l : Fin 8192) :
    concatenate S32x5x8192 1 [⟨S32x1x8192, x0⟩, ⟨S32x1x8192, x1⟩, ⟨S32x1x8192, x2⟩, ⟨S32x1x8192, x3⟩, ⟨S32x1x8192, x4⟩] hc (ix3 r h l)
      = (![x0, x1, x2, x3, x4] h) (ix3 r (0 : Fin 1) l) := by
  match h with
  | ⟨0, _⟩ =>
    exact concatenate_apply_piece (t := S32x5x8192) (1 : Fin 3) [⟨S32x1x8192, x0⟩, ⟨S32x1x8192, x1⟩, ⟨S32x1x8192, x2⟩, ⟨S32x1x8192, x3⟩, ⟨S32x1x8192, x4⟩] hc _ 0 (by simp) S32x1x8192 x0 rfl rfl 0 rfl (ix3 r (0 : Fin 1) l)
      (fun b hb => by match b with | ⟨0, _⟩ => rfl | ⟨1, _⟩ => exact absurd rfl hb | ⟨2, _⟩ => rfl) rfl
  | ⟨1, _⟩ =>
    exact concatenate_apply_piece (t := S32x5x8192) (1 : Fin 3) [⟨S32x1x8192, x0⟩, ⟨S32x1x8192, x1⟩, ⟨S32x1x8192, x2⟩, ⟨S32x1x8192, x3⟩, ⟨S32x1x8192, x4⟩] hc _ 1 (by simp) S32x1x8192 x1 rfl rfl 1 rfl (ix3 r (0 : Fin 1) l)
      (fun b hb => by match b with | ⟨0, _⟩ => rfl | ⟨1, _⟩ => exact absurd rfl hb | ⟨2, _⟩ => rfl) rfl
  | ⟨2, _⟩ =>
    exact concatenate_apply_piece (t := S32x5x8192) (1 : Fin 3) [⟨S32x1x8192, x0⟩, ⟨S32x1x8192, x1⟩, ⟨S32x1x8192, x2⟩, ⟨S32x1x8192, x3⟩, ⟨S32x1x8192, x4⟩] hc _ 2 (by simp) S32x1x8192 x2 rfl rfl 2 rfl (ix3 r (0 : Fin 1) l)
      (fun b hb => by match b with | ⟨0, _⟩ => rfl | ⟨1, _⟩ => exact absurd rfl hb | ⟨2, _⟩ => rfl) rfl
  | ⟨3, _⟩ =>
    exact concatenate_apply_piece (t := S32x5x8192) (1 : Fin 3) [⟨S32x1x8192, x0⟩, ⟨S32x1x8192, x1⟩, ⟨S32x1x8192, x2⟩, ⟨S32x1x8192, x3⟩, ⟨S32x1x8192, x4⟩] hc _ 3 (by simp) S32x1x8192 x3 rfl rfl 3 rfl (ix3 r (0 : Fin 1) l)
      (fun b hb => by match b with | ⟨0, _⟩ => rfl | ⟨1, _⟩ => exact absurd rfl hb | ⟨2, _⟩ => rfl) rfl
  | ⟨4, _⟩ =>
    exact concatenate_apply_piece (t := S32x5x8192) (1 : Fin 3) [⟨S32x1x8192, x0⟩, ⟨S32x1x8192, x1⟩, ⟨S32x1x8192, x2⟩, ⟨S32x1x8192, x3⟩, ⟨S32x1x8192, x4⟩] hc _ 4 (by simp) S32x1x8192 x4 rfl rfl 4 rfl (ix3 r (0 : Fin 1) l)
      (fun b hb => by match b with | ⟨0, _⟩ => rfl | ⟨1, _⟩ => exact absurd rfl hb | ⟨2, _⟩ => rfl) rfl

/-- Four `[32, 1, 8192]` pieces concatenated along the middle axis, read at `(r, q, l)`: piece `q` at `(r, 0, l)`. -/
theorem concat4_apply (x0 x1 x2 x3 : S32x1x8192.Idx → α)
    (hc : Shape.Concatenates [S32x1x8192, S32x1x8192, S32x1x8192, S32x1x8192] S32x4x8192 1)
    (r : Fin 32) (q : Fin 4) (l : Fin 8192) :
    concatenate S32x4x8192 1 [⟨S32x1x8192, x0⟩, ⟨S32x1x8192, x1⟩, ⟨S32x1x8192, x2⟩, ⟨S32x1x8192, x3⟩] hc (ix3 r q l)
      = (![x0, x1, x2, x3] q) (ix3 r (0 : Fin 1) l) := by
  match q with
  | ⟨0, _⟩ =>
    exact concatenate_apply_piece (t := S32x4x8192) (1 : Fin 3) [⟨S32x1x8192, x0⟩, ⟨S32x1x8192, x1⟩, ⟨S32x1x8192, x2⟩, ⟨S32x1x8192, x3⟩] hc _ 0 (by simp) S32x1x8192 x0 rfl rfl 0 rfl (ix3 r (0 : Fin 1) l)
      (fun b hb => by match b with | ⟨0, _⟩ => rfl | ⟨1, _⟩ => exact absurd rfl hb | ⟨2, _⟩ => rfl) rfl
  | ⟨1, _⟩ =>
    exact concatenate_apply_piece (t := S32x4x8192) (1 : Fin 3) [⟨S32x1x8192, x0⟩, ⟨S32x1x8192, x1⟩, ⟨S32x1x8192, x2⟩, ⟨S32x1x8192, x3⟩] hc _ 1 (by simp) S32x1x8192 x1 rfl rfl 1 rfl (ix3 r (0 : Fin 1) l)
      (fun b hb => by match b with | ⟨0, _⟩ => rfl | ⟨1, _⟩ => exact absurd rfl hb | ⟨2, _⟩ => rfl) rfl
  | ⟨2, _⟩ =>
    exact concatenate_apply_piece (t := S32x4x8192) (1 : Fin 3) [⟨S32x1x8192, x0⟩, ⟨S32x1x8192, x1⟩, ⟨S32x1x8192, x2⟩, ⟨S32x1x8192, x3⟩] hc _ 2 (by simp) S32x1x8192 x2 rfl rfl 2 rfl (ix3 r (0 : Fin 1) l)
      (fun b hb => by match b with | ⟨0, _⟩ => rfl | ⟨1, _⟩ => exact absurd rfl hb | ⟨2, _⟩ => rfl) rfl
  | ⟨3, _⟩ =>
    exact concatenate_apply_piece (t := S32x4x8192) (1 : Fin 3) [⟨S32x1x8192, x0⟩, ⟨S32x1x8192, x1⟩, ⟨S32x1x8192, x2⟩, ⟨S32x1x8192, x3⟩] hc _ 3 (by simp) S32x1x8192 x3 rfl rfl 3 rfl (ix3 r (0 : Fin 1) l)
      (fun b hb => by match b with | ⟨0, _⟩ => rfl | ⟨1, _⟩ => exact absurd rfl hb | ⟨2, _⟩ => rfl) rfl

end Layout

/-! ## The contraction at an entry -/

/-- The batched contraction over the columns into the zero accumulator, read at `(r, h, q)`: the sum over the columns
    `l` of the left operand at `(r, h, l)` times the right operand at `(r, q, l)`. -/
theorem matmul_read (A : FVec Ideal S32x5x8192 .bf16) (B : FVec Ideal S32x4x8192 .bf16) (r : Fin 32) (h : Fin 5)
    (q : Fin 4) :
    matmul dot_S32x5x8192_S32x4x8192_S32x5x4_2_2_1_1_0_0 none A B (constant S32x5x4 .f32 0x00000000#32) (ix3 r h q)
      = ∑ l : Fin 8192, A (ix3 r h l) * B (ix3 r q l) := by
  show FloatOps.matmul dot_S32x5x8192_S32x4x8192_S32x5x4_2_2_1_1_0_0 none A B (constant (F := Ideal) S32x5x4 .f32 0x00000000#32) (ix3 r h q) = _
  rw [Ideal.matmul_constant_zero_apply,
    ← Equiv.sum_comp (contrEquiv1 dot_S32x5x8192_S32x4x8192_S32x5x4_2_2_1_1_0_0 8192 rfl rfl).symm]
  refine Finset.sum_congr rfl fun c _ => ?_
  have c3 := contrEquiv1_symm_val dot_S32x5x8192_S32x4x8192_S32x5x4_2_2_1_1_0_0 8192 rfl rfl c
  have l3 : dot_S32x5x8192_S32x4x8192_S32x5x4_2_2_1_1_0_0.lhsIdx (ix3 r h q)
      ((contrEquiv1 dot_S32x5x8192_S32x4x8192_S32x5x4_2_2_1_1_0_0 8192 rfl rfl).symm c) = ix3 r h c := by
    funext ax; apply Fin.ext
    match ax with
    | ⟨0, _⟩ => simp [DotDims.lhsIdx, dot_S32x5x8192_S32x4x8192_S32x5x4_2_2_1_1_0_0]; rfl
    | ⟨1, _⟩ => simp [DotDims.lhsIdx, dot_S32x5x8192_S32x4x8192_S32x5x4_2_2_1_1_0_0]; rfl
    | ⟨2, _⟩ => simp [DotDims.lhsIdx, dot_S32x5x8192_S32x4x8192_S32x5x4_2_2_1_1_0_0]; exact c3
  have r3 : dot_S32x5x8192_S32x4x8192_S32x5x4_2_2_1_1_0_0.rhsIdx (ix3 r h q)
      ((contrEquiv1 dot_S32x5x8192_S32x4x8192_S32x5x4_2_2_1_1_0_0 8192 rfl rfl).symm c) = ix3 r q c := by
    funext ax; apply Fin.ext
    match ax with
    | ⟨0, _⟩ => simp [DotDims.rhsIdx, dot_S32x5x8192_S32x4x8192_S32x5x4_2_2_1_1_0_0]; rfl
    | ⟨1, _⟩ => simp [DotDims.rhsIdx, dot_S32x5x8192_S32x4x8192_S32x5x4_2_2_1_1_0_0]; rfl
    | ⟨2, _⟩ => simp [DotDims.rhsIdx, dot_S32x5x8192_S32x4x8192_S32x5x4_2_2_1_1_0_0]; exact c3
  rw [l3, r3]

/-! ## A mask at an entry -/

/-- A Boolean's one-bit word, widened to 32 bits and read as a signed integer, is `1` or `0`. -/
theorem bit_toReal (b : Bool) : ((((BitVec.ofBool b).setWidth 32).toInt : ℝ) : EReal) = if b then 1 else 0 := by
  cases b
  · have e : ((BitVec.ofBool false).setWidth 32).toInt = 0 := by decide
    rw [e]; simp
  · have e : ((BitVec.ofBool true).setWidth 32).toInt = 1 := by decide
    rw [e]; simp

/-- The mask "the word at this entry equals `c`", at an entry: `1` where it does, `0` where it does not. -/
theorem mask_apply (w : IVec S32x8192 32) (c : BitVec 32) (h1 : 1 < 32) (h2 : FTy.bits .bf16 < FTy.bits .f32)
    (y : S32x8192.Idx) :
    (truncf .bf16 (sitofp (F := Ideal) .f32 (extui 32 (cmpi .eq w (broadcast S32x8192 c)) h1)) h2) y
      = if w y = c then (1 : EReal) else 0 := by
  show ((((IntOp.cmpi .eq (w y) c).setWidth 32).toInt : ℝ) : EReal) = _
  unfold IntOp.cmpi
  simp only
  rw [bit_toReal]
  by_cases e : w y = c <;> simp [e]

/-- The high digit of the masked score at an entry. -/
theorem pay4_apply (i : grid0.Coords) (X : Vec Ideal S32x8192 .f32) (y : S32x8192.Idx) :
    k0_pay4 i X y = hiW (k0_pay3 i X y) := by
  unfold k0_pay4 hiW fptosi floor mulf broadcast
  rfl

/-- The low digit of the masked score at an entry. -/
theorem pay5_apply (i : grid0.Coords) (X : Vec Ideal S32x8192 .f32) (y : S32x8192.Idx) :
    k0_pay5 i X y = loW (k0_pay3 i X y) := by
  unfold k0_pay5 loW Cert.Hist.binW subi muli fptosi floor mulf broadcast
  rw [pay4_apply]
  rfl

/-! ## The tile at an entry -/

/-- Entry `(r, h, q)` of the tile: the sum over the columns of the product of the two digit masks of the masked score. -/
theorem tile_apply (i : grid0.Coords) (X : Vec Ideal S32x8192 .f32) (r : Fin 32) (h : Fin 5) (q : Fin 4) :
    tile (F := Ideal) i X (ix3 r h q)
      = ∑ l : Fin 8192, (if hiW (k0_pay3 i X (ix2 r l)) = BitVec.ofNat 32 h.val then (1 : EReal) else 0)
          * (if loW (k0_pay3 i X (ix2 r l)) = BitVec.ofNat 32 q.val then (1 : EReal) else 0) := by
  unfold tile k0_pay1
  rw [matmul_read]
  refine Finset.sum_congr rfl fun l _ => ?_
  rw [concat5_apply, concat4_apply]
  congr 1
  · match h with
    | ⟨0, _⟩ => exact ((shapeCast_row_apply _ _ r 0 l).trans (mask_apply (k0_pay4 i X) 0#32 _ _ (ix2 r l))).trans (by rw [pay4_apply])
    | ⟨1, _⟩ => exact ((shapeCast_row_apply _ _ r 0 l).trans (mask_apply (k0_pay4 i X) 1#32 _ _ (ix2 r l))).trans (by rw [pay4_apply])
    | ⟨2, _⟩ => exact ((shapeCast_row_apply _ _ r 0 l).trans (mask_apply (k0_pay4 i X) 2#32 _ _ (ix2 r l))).trans (by rw [pay4_apply])
    | ⟨3, _⟩ => exact ((shapeCast_row_apply _ _ r 0 l).trans (mask_apply (k0_pay4 i X) 3#32 _ _ (ix2 r l))).trans (by rw [pay4_apply])
    | ⟨4, _⟩ => exact ((shapeCast_row_apply _ _ r 0 l).trans (mask_apply (k0_pay4 i X) 4#32 _ _ (ix2 r l))).trans (by rw [pay4_apply])
  · match q with
    | ⟨0, _⟩ => exact ((shapeCast_row_apply _ _ r 0 l).trans (mask_apply (k0_pay5 i X) 0#32 _ _ (ix2 r l))).trans (by rw [pay5_apply])
    | ⟨1, _⟩ => exact ((shapeCast_row_apply _ _ r 0 l).trans (mask_apply (k0_pay5 i X) 1#32 _ _ (ix2 r l))).trans (by rw [pay5_apply])
    | ⟨2, _⟩ => exact ((shapeCast_row_apply _ _ r 0 l).trans (mask_apply (k0_pay5 i X) 2#32 _ _ (ix2 r l))).trans (by rw [pay5_apply])
    | ⟨3, _⟩ => exact ((shapeCast_row_apply _ _ r 0 l).trans (mask_apply (k0_pay5 i X) 3#32 _ _ (ix2 r l))).trans (by rw [pay5_apply])

/-- **The tile counts.** At the step with grid coordinates `i`, if every entry of the block whose global column is inside
    the array is a real number in `[0, 1)`, then entry `(r, h, q)` of the tile is the number of columns `l` of row `r` that
    are inside the array and whose score falls in bin `4·h + q`. -/
theorem tile_count (i : grid0.Coords) (X : S32x8192.Idx → EReal)
    (hX : ∀ (r : Fin 32) (l : Fin 8192), 8192 * (i 1).val + l.val < 1000000 →
            ∃ v : ℝ, X (ix2 r l) = (v : EReal) ∧ 0 ≤ v ∧ v < 1)
    (r : Fin 32) (h : Fin 5) (q : Fin 4) :
    tile (F := Ideal) i X (ix3 r h q)
      = ∑ l : Fin 8192, if 8192 * (i 1).val + l.val < 1000000
            ∧ Cert.Hist.binW (X (ix2 r l)) = BitVec.ofNat 32 (4 * h.val + q.val) then (1 : EReal) else 0 := by
  rw [tile_apply]
  refine Finset.sum_congr rfl fun l _ => ?_
  rw [pay3_apply]
  show (if hiW (if 8192 * (i 1).val + l.val < 1000000 then X (ix2 r l) else Ideal.ofBits .f32 0xBF800000#32) = _ then (1 : EReal) else 0)
      * (if loW (if 8192 * (i 1).val + l.val < 1000000 then X (ix2 r l) else Ideal.ofBits .f32 0xBF800000#32) = _ then (1 : EReal) else 0) = _
  by_cases hv : 8192 * (i 1).val + l.val < 1000000
  · obtain ⟨v, hv1, h0, h1⟩ := hX r l hv
    rw [if_pos hv, hv1]
    have key := digit_split v h0 h1 h q
    by_cases hb : Cert.Hist.binW (v : EReal) = BitVec.ofNat 32 (4 * h.val + q.val)
    · obtain ⟨a, b⟩ := key.mpr hb
      have hc : 8192 * (i 1).val + l.val < 1000000
          ∧ Cert.Hist.binW (v : EReal) = BitVec.ofNat 32 (4 * h.val + q.val) := ⟨hv, hb⟩
      rw [if_pos a, if_pos b, if_pos hc, one_mul]
    · have hc : ¬(8192 * (i 1).val + l.val < 1000000
          ∧ Cert.Hist.binW (v : EReal) = BitVec.ofNat 32 (4 * h.val + q.val)) := fun hh => hb hh.2
      rw [if_neg hc]
      by_cases a : hiW (v : EReal) = BitVec.ofNat 32 h.val
      · have nb : ¬loW (v : EReal) = BitVec.ofNat 32 q.val := fun b => hb (key.mp ⟨a, b⟩)
        rw [if_pos a, if_neg nb, mul_zero]
      · rw [if_neg a, zero_mul]
  · have hc : ¬(8192 * (i 1).val + l.val < 1000000
        ∧ Cert.Hist.binW (X (ix2 r l)) = BitVec.ofNat 32 (4 * h.val + q.val)) := fun hh => hv hh.1
    rw [if_neg hv, if_neg hc, ofBits_negOne, if_neg (hiW_negOne h), zero_mul]

end Cert.KernelIdeal.Hand

end
-- ==== Proof.Final.lean ====
/-
  What the kernel's result array holds, at the exact-real instance: the histogram.

  Point `t = 123·i + j` reads rows `32·i … 32·i + 31` and columns `8192·j … 8192·j + 8191` of the scores, and its
  tile counts, for each of the 32 rows and each bin `4h + q`, the columns of that stretch that lie inside the array
  and fall in the bin. So after point `t` the output's staging buffer holds, at `(r, h, q)`, the number of such
  columns among the first `8192·(j+1)` of row `32·i + r` (induction on the point), after `j = 122` the row's whole
  count, and that is what is written back to rows `32·i … 32·i + 31` of the result: every entry of the result is
  covered by one of the two write-backs.
-/
import proofs.«123458_j73744588472820_2_alg».proof.Proof.Body
import proofs.«123458_j73744588472820_2_alg».proof.Proof.RangeSum
import proofs.«123458_j73744588472820_2_alg».proof.Proof.Layout
import proofs.«123458_j73744588472820_2_alg».proof.Proof.TileCount
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hist

variable (m : (ℓ : Loc nD τ sig) → Buf (Elt Ideal) ℓ) (ρ : Dev nD → PrngReg)

/-! ## The printed index maps, decided over the grid -/

/-- The input's block index at point `t` is `(t / 123, t % 123)`; the output's is `(t / 123, 0, 0)`. -/
theorem idx_facts : ∀ t : Fin cfg0.N, win0_0.index t (0 : Fin 2) = t.val / 123 ∧ win0_0.index t (1 : Fin 2) = t.val % 123
    ∧ win0_1.index t (0 : Fin 3) = t.val / 123 ∧ win0_1.index t (1 : Fin 3) = 0 ∧ win0_1.index t (2 : Fin 3) = 0 :=
  (by decide +kernel : ∀ t : Fin grid0.N, _)

/-- The scores as core `c` finds them. -/
abbrev X0 (c : Dev nD) : SX.Idx → EReal := V m c main_arg0

/-- An entry of the input's block at point `t` whose column lies inside the array is the score at row
    `32·(t / 123) + r`, column `8192·(t % 123) + l`. -/
theorem xblk_apply (c : Dev nD) (t : Fin cfg0.N) (r : Fin 32) (l : Fin 8192) (hv : 8192 * (t.val % 123) + l.val < 1000000)
    (hr : 32 * (t.val / 123) + r.val < 64) :
    xblk m c t (ix2 r l) = X0 m c (ix2 ⟨32 * (t.val / 123) + r.val, hr⟩ ⟨8192 * (t.val % 123) + l.val, hv⟩) := by
  have hm : win0_0.moved (grid0.coords t) (ix2 r l) = true := (moved_iff_valid t _).mpr (by rw [coords1 t]; exact hv)
  obtain ⟨e0, e1, -, -, -⟩ := idx_facts t
  unfold xblk Window.fill
  rw [dif_pos hm]
  unfold iblk
  show X0 m c (((cfg0.win 0).blk t).view.emb _) = _
  refine congrArg (X0 m c) ?_
  funext a; apply Fin.ext
  match a with
  | ⟨0, _⟩ => show win0_0.index t (0 : Fin 2) * 32 + 1 * r.val = 32 * (t.val / 123) + r.val; omega
  | ⟨1, _⟩ => show win0_0.index t (1 : Fin 2) * 8192 + 1 * l.val = 8192 * (t.val % 123) + l.val; omega

/-- A later step's sum at an entry: what the buffer held plus the tile. -/
theorem step_apply (i : grid0.Coords) (X : S32x8192.Idx → EReal) (prev : S32x5x4.Idx → EReal) (y : S32x5x4.Idx) :
    step (F := Ideal) i X prev y = prev y + tile (F := Ideal) i X y := by
  unfold step k0_pay2 tile
  simp only [shapeCast_self]
  rfl

/-! ## The accumulation, entry by entry -/

/-- After point `t` the output's buffer holds at `(r, h, q)` the number of columns among the first
    `8192·(t % 123 + 1)` of row `32·(t / 123) + r` that fall in bin `4h + q`. -/
theorem acc_count (c : Dev nD) (hx : InUnit (X0 m c)) :
    ∀ (n : ℕ) (hn : n < cfg0.N) (r : Fin 32) (h : Fin 5) (q : Fin 4) (hr : 32 * (n / 123) + r.val < 64),
      acc m c n hn (ix3 r h q)
        = ∑ k ∈ Finset.range (8192 * (n % 123 + 1)), hit (X0 m c) ⟨32 * (n / 123) + r.val, hr⟩ (4 * h.val + q.val) k := by
  -- the tile of point `t`, as the sum of the row's summands over the tile's columns
  have htile : ∀ (t : Fin cfg0.N) (r : Fin 32) (h : Fin 5) (q : Fin 4) (hr : 32 * (t.val / 123) + r.val < 64),
      tile (F := Ideal) (grid0.coords t) (xblk m c t) (ix3 r h q)
        = ∑ l ∈ Finset.range 8192, hit (X0 m c) ⟨32 * (t.val / 123) + r.val, hr⟩ (4 * h.val + q.val) (8192 * (t.val % 123) + l) := by
    intro t r h q hr
    rw [tile_count (grid0.coords t) (xblk m c t) (fun r' l' hv' => by
      rw [coords1 t] at hv'
      have hN : t.val < 246 := lt_of_lt_of_eq t.isLt (show cfg0.N = 246 from N_0)
      rw [xblk_apply m c t r' l' hv' (by have := r'.isLt; omega)]
      exact hx _) r h q, Finset.sum_range]
    refine Finset.sum_congr rfl fun l _ => ?_
    rw [coords1 t]
    unfold hit
    by_cases hv : 8192 * (t.val % 123) + l.val < 1000000
    · rw [dif_pos hv, xblk_apply m c t r l hv hr]
      by_cases hb : binW (X0 m c (ix2 ⟨32 * (t.val / 123) + r.val, hr⟩ ⟨8192 * (t.val % 123) + l.val, hv⟩)) = BitVec.ofNat 32 (4 * h.val + q.val)
      · rw [if_pos ⟨hv, hb⟩, if_pos hb]
      · rw [if_neg (fun hh => hb hh.2), if_neg hb]
    · rw [dif_neg hv, if_neg (fun hh => hv hh.1)]
  intro n
  induction n with
  | zero =>
    intro hn r h q hr
    rw [acc_first m c ⟨0, hn⟩ (Nat.zero_mod _), htile ⟨0, hn⟩ r h q hr]
    simp only [Nat.zero_mod, Nat.zero_add, Nat.mul_zero, Nat.mul_one]
  | succ n ih =>
    intro hn r h q hr
    have hN : n + 1 < 246 := lt_of_lt_of_eq hn (show cfg0.N = 246 from N_0)
    by_cases h0 : (n + 1) % 123 = 0
    · rw [acc_first m c ⟨n + 1, hn⟩ h0, htile ⟨n + 1, hn⟩ r h q hr]
      show _ = ∑ k ∈ Finset.range (8192 * ((n + 1) % 123 + 1)), _
      rw [h0]
      simp only [Nat.zero_add, Nat.mul_zero, Nat.mul_one]
    · rw [acc_later m c ⟨n + 1, hn⟩ h0, step_apply, htile ⟨n + 1, hn⟩ r h q hr]
      have hd : (n + 1) / 123 = n / 123 := by omega
      have hm : (n + 1) % 123 = n % 123 + 1 := by omega
      show acc m c n _ (ix3 r h q) + _ = ∑ k ∈ Finset.range (8192 * ((n + 1) % 123 + 1)), _
      rw [ih (Nat.lt_of_succ_lt hn) r h q (by omega), range_step _ ((n + 1) % 123)]
      simp only [hd, hm]
/-- What a write-back writes (the points of column tile 122) is its block of the histogram. -/
theorem flushed_eq (c : Dev nD) (hx : InUnit (X0 m c)) (t : Fin cfg0.N) (hf : (cfg0.win 1).flush t = true) :
    (dats m 0 c).flushed 1 t = ((cfg0.win 1).blk t).view.read (Elt Ideal) (G (X0 m c)) := by
  have hj : t.val % 123 = 122 := (flush0_1 t).mp hf
  have hN : t.val < 246 := lt_of_lt_of_eq t.isLt (show cfg0.N = 246 from N_0)
  obtain ⟨-, -, e2, e3, e4⟩ := idx_facts t
  show (cfg0.win 1).cut (grid0.coords t) ((dats m 0 c).after 1 t) = _
  rw [after1]
  funext y
  have h0 : (y 0).val < 32 := (y 0).isLt
  have h1 : (y 1).val < 5 := (y 1).isLt
  have h2 : (y 2).val < 4 := (y 2).isLt
  rw [View.read_apply, cast_eq]
  -- the entry of the buffer the write-back reads at `y`
  have hy : (cfg0.win 1).xinj (grid0.coords t) y = ix3 ⟨(y 0).val, h0⟩ ⟨(y 1).val, h1⟩ ⟨(y 2).val, h2⟩ := by
    funext a; apply Fin.ext
    match a with
    | ⟨0, _⟩ => rfl
    | ⟨1, _⟩ => rfl
    | ⟨2, _⟩ => rfl
  show acc m c t.val t.isLt ((cfg0.win 1).xinj (grid0.coords t) y) = _
  rw [hy]
  have hr : 32 * (t.val / 123) + (y 0).val < 64 := by omega
  have hk' : 4 * (y 1).val + (y 2).val < 20 := by omega
  -- after column tile 122 the buffer holds the whole row's count
  rw [acc_count m c hx t.val t.isLt ⟨(y 0).val, h0⟩ ⟨(y 1).val, h1⟩ ⟨(y 2).val, h2⟩ hr]
  have e5 : 8192 * (t.val % 123 + 1) = 8192 * 123 := by rw [hj]
  rw [e5, range_tiles _ (fun n hn => hit_of_ge _ _ _ hn)]
  have e6 := (count_eq_range (X0 m c) ⟨32 * (t.val / 123) + (y 0).val, hr⟩ ⟨4 * (y 1).val + (y 2).val, hk'⟩).symm
  refine e6.trans ?_
  -- the entry of the result the block's entry `y` is: row `32·(t / 123) + y₀`, and `(y₁, y₂)` unchanged
  have c0 : ((((cfg0.win 1).blk t).view.emb y) 0).val = win0_1.index t (0 : Fin 3) * 32 + 1 * (y 0).val := rfl
  have c1 : ((((cfg0.win 1).blk t).view.emb y) 1).val = win0_1.index t (1 : Fin 3) * 5 + 1 * (y 1).val := rfl
  have c2 : ((((cfg0.win 1).blk t).view.emb y) 2).val = win0_1.index t (2 : Fin 3) * 4 + 1 * (y 2).val := rfl
  have hb : (⟨32 * (t.val / 123) + (y 0).val, hr⟩ : Fin 64).val = ((((cfg0.win 1).blk t).view.emb y) 0).val := by
    rw [c0]; show 32 * (t.val / 123) + (y 0).val = _; omega
  have hk : (⟨4 * (y 1).val + (y 2).val, hk'⟩ : Fin 20).val
      = 4 * ((((cfg0.win 1).blk t).view.emb y) 1).val + ((((cfg0.win 1).blk t).view.emb y) 2).val := by
    rw [c1, c2]; show 4 * (y 1).val + (y 2).val = _; omega
  exact count_at (X0 m c) (((cfg0.win 1).blk t).view.emb y) _ _ hb hk

/-- An index of the result is in point `t`'s block iff each coordinate is in the block's range on its axis. -/
theorem mem_blk (t : Fin cfg0.N) (i : S64x5x4.Idx) :
    i ∈ ((cfg0.win 1).blk t).view.set ↔ ∀ a : Fin 3, win0_1.index t a * S32x5x4.size a ≤ (i a).val ∧ (i a).val < win0_1.index t a * S32x5x4.size a + S32x5x4.size a := by
  show i ∈ ((View.whole main_v0).slice (win0_1.rect t)).set ↔ _
  rw [View.set_slice_whole, Rect.mem_set_unit]
  exact Iff.rfl

/-- Every entry of the result lies in the block one of the two write-backs writes. -/
theorem cover (i : S64x5x4.Idx) : ∃ t : Fin cfg0.N, (cfg0.win 1).flush t = true ∧ i ∈ ((cfg0.win 1).blk t).view.set := by
  have h0 : (i 0).val < 64 := (i 0).isLt
  have h1 : (i 1).val < 5 := (i 1).isLt
  have h2 : (i 2).val < 4 := (i 2).isLt
  let t : Fin cfg0.N := ⟨123 * ((i 0).val / 32) + 122, lt_of_lt_of_eq (by omega) (show 246 = cfg0.N from N_0.symm)⟩
  have ht : t.val = 123 * ((i 0).val / 32) + 122 := rfl
  obtain ⟨-, -, e2, e3, e4⟩ := idx_facts t
  refine ⟨t, (flush0_1 t).mpr (by omega), ?_⟩
  rw [mem_blk]
  intro a
  match a with
  | ⟨0, _⟩ => show win0_1.index t (0 : Fin 3) * 32 ≤ (i 0).val ∧ (i 0).val < win0_1.index t (0 : Fin 3) * 32 + 32; omega
  | ⟨1, _⟩ => show win0_1.index t (1 : Fin 3) * 5 ≤ (i 1).val ∧ (i 1).val < win0_1.index t (1 : Fin 3) * 5 + 5; omega
  | ⟨2, _⟩ => show win0_1.index t (2 : Fin 3) * 4 ≤ (i 2).val ∧ (i 2).val < win0_1.index t (2 : Fin 3) * 4 + 4; omega

/-- THE RESULT ARRAY after the region: the histogram. -/
theorem final (c : Dev nD) (hx : InUnit (X0 m c)) : (dats m 0 c).arrAt 1 cfg0.N = G (X0 m c) :=
  (dats m 0 c).arrAt_eq_of_cover 1 (G (X0 m c)) (fun t hf => flushed_eq m c hx t hf) cover

end Cert.KernelIdeal.Hand

end
-- ==== Proof.Tail.lean ====
/-
  The entropy both programs end with, as one function of the table of counts.

  From the 64 × 20 table of counts `c`: the frequencies `p = c / 1000000`; for each entry the term
  `-p · (log (max p 1e-30) / log 2)` where `p > 0` and `0` elsewhere; and the sum of the 1280 terms. The function is
  spelled operation by operation, in the order and with the constants' words the two programs use, so that each
  program's last stages are this function of its own table by unfolding.
-/
import Idealize.ShloMosaic.PureOps

noncomputable section

namespace Cert.Hist

open Idealize.ShloMosaic

variable {F : FTy → Type} [FloatOps F]

/-- The frequencies: the counts divided by the word of `1000000`, broadcast over the table. -/
def prob (hb : (⟨0, ![]⟩ : Shape).BroadcastsInDim (⟨2, ![64, 20]⟩ : Shape) (![] : Fin 0 → Fin 2))
    (cnt : (⟨2, ![64, 20]⟩ : Shape).Idx → Elt F .f32) : (⟨2, ![64, 20]⟩ : Shape).Idx → Elt F .f32 :=
  Host.divf (F := F) cnt (broadcastInDim (⟨2, ![64, 20]⟩ : Shape) ![] hb (constant (F := F) (⟨0, ![]⟩ : Shape) .f32 0x49742400#32))

/-- The entropy of the table of counts: the sum over the table of `-p · (log (max p 1e-30) / log 2)` where `p > 0`,
    `0` elsewhere, from the zero word. -/
def tail (hb : (⟨0, ![]⟩ : Shape).BroadcastsInDim (⟨2, ![64, 20]⟩ : Shape) (![] : Fin 0 → Fin 2))
    (hr : (⟨2, ![64, 20]⟩ : Shape).ReducesTo [0, 1] (⟨0, ![]⟩ : Shape)) (h0 : 0 < (⟨0, ![]⟩ : Shape).numel)
    (cnt : (⟨2, ![64, 20]⟩ : Shape).Idx → Elt F .f32) : (⟨0, ![]⟩ : Shape).Idx → Elt F .f32 :=
  Host.reduceAdd (F := F)
    (select
      (cmpf (F := F) .ogt (prob hb cnt)
        (broadcastInDim (⟨2, ![64, 20]⟩ : Shape) ![] hb (constant (F := F) (⟨0, ![]⟩ : Shape) .f32 0x00000000#32)))
      (mulf (F := F) (Host.negf (F := F) (prob hb cnt))
        (Host.divf (F := F)
          (Host.log (F := F)
            (maximumf (F := F) (prob hb cnt)
              (broadcastInDim (⟨2, ![64, 20]⟩ : Shape) ![] hb (constant (F := F) (⟨0, ![]⟩ : Shape) .f32 0x0DA24260#32))))
          (broadcastInDim (⟨2, ![64, 20]⟩ : Shape) ![] hb
            (Host.log (F := F) (constant (F := F) (⟨0, ![]⟩ : Shape) .f32 0x40000000#32)))))
      (broadcastInDim (⟨2, ![64, 20]⟩ : Shape) ![] hb (constant (F := F) (⟨0, ![]⟩ : Shape) .f32 0x00000000#32)))
    (constant (F := F) (⟨0, ![]⟩ : Shape) .f32 0x00000000#32) hr h0

end Cert.Hist

end
-- ==== Proof.KerTail.lean ====
/-
  The kernel's host lines after the region, read off the frame run.

  After the region the program reshapes the region's 64 × 5 × 4 result array to 64 × 20 and then applies the same
  entropy operations the reference ends with: the division by 1,000,000, the comparison with zero, the logarithm of
  the maximum with a tiny constant over the logarithm of 2, the product with the negated frequency, the selection
  (a called function, run as a stretch of its own) and the sum over the table. The frame run leaves the result
  buffer at these lines' composed value from the region's exit contents, where the result array holds what the
  proof data say the pipeline wrote back. Reading the lines one by one gives the entropy function of the reshaped
  result array; the wrappers of the called function's references and the reshape's cast along a reflexive equation
  are definitional identities, so the two terms agree by unfolding.
-/
import proofs.«123458_j73744588472820_2_alg».proof.Proof.Body
import proofs.«123458_j73744588472820_2_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.StableHlo
open Idealize.ShloMosaic.Pipeline (Dat Cfg Window cellOf)

variable {F : FTy → Type} [FloatOps F]
variable (m : (ℓ : Loc nD τ sig) → Buf (Elt F) ℓ)

/-- At the region's exit the result array holds what the proof data say was written back to it. -/
theorem exit_result (c : Dev nD) :
    Pipeline.withArrays (cfgs 0).spec c (V0 m c) (fun w => (dats m 0 c).arrAt w (cfgs 0).N) (Proc.devRef .tc main_v0)
      = (dats m 0 c).arrAt 1 cfg0.N :=
  Pipeline.withArrays_arr spec0 launch0.win.arr_inj c _ _ 1

set_option maxHeartbeats 400000 in
/-- What the result buffer holds after the host lines: the entropy of the reshaped result array of the region. -/
theorem ker_tail (c : Dev nD) :
    Pipeline.afterTail₀ cfgs (dats m) 0 (V0 m) [hostOps1, hostOps1_1, hostOps1_2] c main_v15
      = Cert.Hist.tail bcast_S_S64x20 reducesTo_S64x20_S_d0_1 h_S_
          (shapeCast S64x20 ((dats m 0 c).arrAt 1 cfg0.N) shapeCasts_S64x5x4_S64x20) := by
  unfold Pipeline.afterTail₀
  simp only [List.flatten_cons, List.flatten_nil, List.append_nil, List.cons_append, List.nil_append]
  show StableHlo.after _ _ (Proc.devRef .tc main_v15) = _
  after_results
  rw [exit_result m c]
  generalize (dats m 0 c).arrAt 1 cfg0.N = R
  unfold Cert.Hist.tail Cert.Hist.prob
  rfl

end Cert.KernelIdeal.Hand

end
-- ==== Proof.KerSide.lean ====
/-
  The kernel's run, read: its result is the shared entropy tail of the flattened histogram.

  After the region the result array holds the histogram; the host lines that follow flatten it to [64, 20] and apply
  the entropy tail. Stated over the same expression as the reference's run, so that the two runs end at one term.
-/
import proofs.«123458_j73744588472820_2_alg».proof.Proof.Final
import proofs.«123458_j73744588472820_2_alg».proof.Proof.KerTail

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hist

variable (m : (ℓ : Loc nD τ sig) → Buf (Elt Ideal) ℓ) (ρ : Dev nD → PrngReg)

/-- The result buffer is an unscoped buffer that is no array of the pipeline. -/
theorem result_mem_rest : main_v15 ∈ Pipeline.restRefs sig spec0 :=
  Pipeline.mem_restRefs_of main_v15 rfl (fun w => by fin_cases w <;> decide)

/-- Every weakly fair execution of the idealized kernel terminates with its result at the entropy tail of the
    flattened histogram of the scores, and the scores unchanged. -/
theorem ker_run (hx : ∀ c : Dev nD, InUnit (m ((c.tc : Thread nD τ).loc main_arg0)))
    (hc : SR.ShapeCasts (⟨2, ![64, 20]⟩ : Shape)) :
    θ_run (defs (F := Ideal)) (onTc (τ := τ) (main (F := Ideal))) ⟨m, fun _ => 0, ρ⟩ (fun r => ∀ c : Dev nD,
      r.2.mem ((c.tc : Thread nD τ).loc main_v15)
          = Cert.Hist.tail bcast_S_S64x20 reducesTo_S64x20_S_d0_1 h_S_
              (shapeCast (⟨2, ![64, 20]⟩ : Shape) (G (m ((c.tc : Thread nD τ).loc main_arg0))) hc)
        ∧ r.2.mem ((c.tc : Thread nD τ).loc main_arg0) = m ((c.tc : Thread nD τ).loc main_arg0)) :=
  (θ_run defs _ _).mono (fun r h c => ⟨by
      rw [(h c).2 main_v15 result_mem_rest, ker_tail m c, final m c (hx c)]
      rfl,
    ((h c).1 0).trans (((dats m 0 c).arrAt_in 0 rfl _).trans ((A_eq m c 0).trans (V_main_arg0 m c)))⟩)
    (run_main m ρ)

end Cert.KernelIdeal.Hand

end
-- ==== Proof.RefTail.lean ====
/-
  The reference's last stages are the entropy of its table of counts.
-/
import proofs.«123458_j73744588472820_2_alg».proof.Proof.Tail
import proofs.«123458_j73744588472820_2_alg».proof.Proof.RefRead

noncomputable section

namespace Cert.Hist.Ref

open Idealize.ShloMosaic Cert.ReferenceIdeal

variable {F : FTy → Type} [FloatOps F]

/-- The reference's result is the entropy of its table of counts. -/
theorem ref_tail (x : (⟨S64x1000000, .f32⟩ : BufTy).Contents (Elt F)) :
    Cert.ReferenceIdeal.ReadP.val_main_v29 (F := F) x
      = Cert.Hist.tail Cert.ReferenceIdeal.Gen.bcast_S_S64x20 Cert.ReferenceIdeal.Gen.reducesTo_S64x20_S_d0_1
          Cert.ReferenceIdeal.Gen.h_S_ (Cert.ReferenceIdeal.ReadP.val_main_v15 (F := F) x) := by
  unfold Cert.ReferenceIdeal.ReadP.val_main_v29 Cert.ReferenceIdeal.ReadP.val_main_v28
    Cert.ReferenceIdeal.ReadP.val_main_v27 Cert.ReferenceIdeal.ReadP.val_main_v26
    Cert.ReferenceIdeal.ReadP.val_main_v25 Cert.ReferenceIdeal.ReadP.val_main_v24
    Cert.ReferenceIdeal.ReadP.val_main_v23 Cert.ReferenceIdeal.ReadP.val_main_v22
    Cert.ReferenceIdeal.ReadP.val_main_v21 Cert.ReferenceIdeal.ReadP.val_main_v20
    Cert.ReferenceIdeal.ReadP.val_main_v19 Cert.ReferenceIdeal.ReadP.val_main_v18
    Cert.ReferenceIdeal.ReadP.val_main_v17 Cert.ReferenceIdeal.ReadP.val_main_v16
    Cert.ReferenceIdeal.ReadP.val_main_call0_v0
    Cert.ReferenceIdeal.ReadP.val_main_cst_2 Cert.ReferenceIdeal.ReadP.val_main_cst_3
    Cert.ReferenceIdeal.ReadP.val_main_cst_4 Cert.ReferenceIdeal.ReadP.val_main_cst_5
    Cert.ReferenceIdeal.ReadP.val_main_cst_6 Cert.ReferenceIdeal.ReadP.val_main_cst_7
    Cert.Hist.tail Cert.Hist.prob
  rfl

end Cert.Hist.Ref

end
-- ==== Proof.RefCount.lean ====
/-
  The reference's count array is the histogram.

  The reference flattens the 64 × 1,000,000 score array, gives the position of row `b'`, column `l` the segment
  id `20·b' + ⌊20·x⌋` (a 32-bit word), and adds a one into slot `id` of a zero array of 1280 slots; the result is
  read as a 64 × 20 array, so that entry `(b, k)` is slot `20·b + k`. Over the extended reals the scatter is the
  exact sum: slot `t` holds the number of positions whose segment id, read as a signed integer, is `t`.

  For a score in `[0, 1)` the bin `⌊20·x⌋` is one of `0, …, 19`, so the segment id is the natural number
  `20·b' + bin < 1280`: it does not wrap, it is never negative, and `20·b' + bin = 20·b + k` with both bins below
  20 forces `b' = b` and `bin = k`. Hence only positions of row `b` reach slot `20·b + k`, and among them exactly
  the columns whose bin is `k`. Re-indexing the 64,000,000 positions as pairs (row, column) turns the scatter's
  sum into the sum over the columns of row `b` of the indicator "the bin is `k`", which is `count x b k`.

  Every step is a lemma over symbolic indices; no index set is ever enumerated. The scatter is read at a slot
  through one lemma stated for arbitrary shapes and operands, and then only rewritten with at the program's shapes.
-/
import proofs.«123458_j73744588472820_2_alg».proof.Proof.Spec
import proofs.«123458_j73744588472820_2_alg».proof.Proof.RefRead
import Idealize.ShloMosaic.Lib.ValueIdx
import Idealize.ShloMosaic.PureOps.Ideal.Laws

noncomputable section

namespace Cert.Hist.Ref

open Idealize.ShloMosaic Idealize.ShloMosaic.ValueIdx Cert.ReferenceIdeal Cert.ReferenceIdeal.Gen

/-- The word `0x41A00000` is the real number twenty. -/
theorem ofBits_twenty_f32 : Ideal.ofBits .f32 0x41A00000#32 = ((20 : ℝ) : EReal) := by
  simp [Ideal.ofBits, Ideal.ieee, -EReal.coe_mul]; norm_num

/-- The word `0x3F800000` is the real number one. -/
theorem ofBits_one_f32 : Ideal.ofBits .f32 0x3F800000#32 = 1 := by
  simp [Ideal.ofBits, Ideal.ieee, -EReal.coe_mul]; norm_num

/-- For a real `r` in `[0, 1)` the bin word is the word of a natural number below 20. -/
theorem binW_of_unit (r : ℝ) (h0 : 0 ≤ r) (h1 : r < 1) : ∃ n : ℕ, n < 20 ∧ binW (r : EReal) = BitVec.ofNat 32 n := by
  have hm0 : 0 ≤ ⌊r * 20⌋ := Int.floor_nonneg.2 (by positivity)
  have hm1 : ⌊r * 20⌋ < 20 := Int.floor_lt.2 (by push_cast; linarith)
  refine ⟨⌊r * 20⌋.toNat, by omega, ?_⟩
  unfold binW
  rw [ofBits_twenty_f32, ← EReal.coe_mul, Ideal.liftRound_coe, Ideal.fptosi, Ideal.toIntClamped_coe,
    if_pos (by exact_mod_cast hm0), Int.floor_intCast]
  have e : max (-((2 ^ (32 - 1) : ℕ) : ℤ)) (min (((2 ^ (32 - 1) : ℕ) : ℤ) - 1) ⌊r * 20⌋) = ((⌊r * 20⌋.toNat : ℕ) : ℤ) := by
    norm_num
    omega
  rw [e, BitVec.ofInt_natCast]

/-! ## The scatter's dimension numbers, read at an update index -/

/-- The reference's scatter: 64,000,000 scalar updates into 1280 slots, one scatter index per update. -/
abbrev sd : ScatterDims S1280 S64000000x1 S64000000 := scatter_S1280_S64000000x1_S64000000_n_0_0_1

set_option maxHeartbeats 50000 in
/-- The window of update `jj` starts at the signed value of its own scatter index. -/
theorem sd_start (jj : Fin 64000000) (idx : IVec S64000000x1 32) (a : Fin 1) :
    sd.start (ix1 jj) idx a = (idx (ix2 jj (0 : Fin 1))).toInt := by
  have ha : a = 0 := Subsingleton.elim _ _
  subst ha
  unfold ScatterDims.start
  rw [dif_pos (by decide)]
  refine congrArg BitVec.toInt (congrArg idx ?_)
  funext b
  match b with
  | ⟨0, _⟩ => rfl
  | ⟨1, _⟩ => rfl

set_option maxHeartbeats 50000 in
/-- The updates are scalars: the window coordinate is zero. -/
theorem sd_window (jj : Fin 64000000) (a : Fin 1) : sd.window (ix1 jj) a = 0 := by
  have ha : a = 0 := Subsingleton.elim _ _
  subst ha
  unfold ScatterDims.window
  rw [dif_neg (by decide)]

set_option maxHeartbeats 100000 in
/-- Update `jj` lands in slot `t` exactly when its scatter index, read signed, is `t`. -/
theorem sd_resultIdx_eq_some (jj : Fin 64000000) (idx : IVec S64000000x1 32) (t : Fin 1280) :
    sd.resultIdx? (ix1 jj) idx = some (ix1 t) ↔ (idx (ix2 jj (0 : Fin 1))).toInt = (t.val : ℤ) := by
  have ht := t.isLt
  unfold ScatterDims.resultIdx?
  split
  · rename_i h
    have h0 := h (0 : Fin 1)
    rw [sd_start jj idx 0, sd_window jj 0] at h0
    rw [Option.some.injEq]
    constructor
    · intro e
      have e0 := congrArg Fin.val (congrFun e (0 : Fin 1))
      have e1 : (sd.start (ix1 jj) idx (0 : Fin 1) + ((sd.window (ix1 jj) (0 : Fin 1) : ℕ) : ℤ)).toNat = t.val := e0
      rw [sd_start jj idx 0, sd_window jj 0] at e1
      omega
    · intro e
      funext a
      have ha : a = (0 : Fin 1) := Subsingleton.elim _ _
      subst ha
      refine Fin.ext ?_
      show (sd.start (ix1 jj) idx (0 : Fin 1) + ((sd.window (ix1 jj) (0 : Fin 1) : ℕ) : ℤ)).toNat = t.val
      rw [sd_start jj idx 0, sd_window jj 0]
      omega
  · rename_i h
    constructor
    · intro e; cases e
    · intro e
      refine absurd (fun a => ?_) h
      have ha : a = (0 : Fin 1) := Subsingleton.elim _ _
      subst ha
      rw [sd_start jj idx 0, sd_window jj 0]
      refine ⟨by omega, ?_⟩
      show _ < ((1280 : ℕ) : ℤ)
      omega

/-! ## The scatter index of a position of the flattened array -/

/-- The segment id of row `b'`, column `l`, as the program forms it: `20·b' + bin` in 32-bit arithmetic. -/
def flatW (x : SX.Idx → EReal) (b' : Fin 64) (l : Fin 1000000) : BitVec 32 :=
  IntOp.addi (IntOp.muli (BitVec.ofNat 32 b'.val) 20#32) (binW (x (ix2 b' l)))

/-- Position `1000000·b' + l` of the flattened array is row `b'`, column `l`. -/
theorem idx_flat (b' : Fin 64) (l : Fin 1000000) (h : b'.val * 1000000 + l.val < 64000000) :
    ReadP.idx_main_v10 (ReadP.idx_main_v13 (ix2 (⟨b'.val * 1000000 + l.val, h⟩ : Fin 64000000) (0 : Fin 1))) = ix2 b' l := by
  funext a
  match a with
  | ⟨0, _⟩ => exact Fin.ext (by show (b'.val * 1000000 + l.val) / 1000000 = b'.val; omega)
  | ⟨1, _⟩ => exact Fin.ext (by show (b'.val * 1000000 + l.val) % 1000000 = l.val; omega)

set_option maxHeartbeats 200000 in
/-- The scatter index the program computes at position `1000000·b' + l` is that segment id. -/
theorem idx_word (x : SX.Idx → EReal) (b' : Fin 64) (l : Fin 1000000) (h : b'.val * 1000000 + l.val < 64000000) :
    ReadP.val_main_v13 (F := Ideal) x (ix2 (⟨b'.val * 1000000 + l.val, h⟩ : Fin 64000000) (0 : Fin 1)) = flatW x b' l := by
  rw [ReadP.val_main_v13_apply, ReadP.val_main_v10_apply, idx_flat b' l h, ReadP.val_main_v9_apply,
    ReadP.val_main_v8_apply, ReadP.val_main_v7_apply, ReadP.val_main_v5_apply, ReadP.val_main_v6_apply,
    ReadP.val_main_v4_apply, ReadP.val_main_c_apply, ReadP.val_main_v3_apply, ReadP.val_main_v2_apply,
    ReadP.val_main_v1_apply, ReadP.val_main_v0_apply, ReadP.val_main_cst_apply]
  rfl

/-- Under the unit hypothesis the bin is a natural number below 20 and the segment id does not wrap. -/
theorem flatW_toInt (x : SX.Idx → EReal) (hx : InUnit x) (b' : Fin 64) (l : Fin 1000000) :
    ∃ n : ℕ, n < 20 ∧ binW (x (ix2 b' l)) = BitVec.ofNat 32 n ∧ (flatW x b' l).toInt = ((b'.val * 20 + n : ℕ) : ℤ) := by
  obtain ⟨r, hr, h0, h1⟩ := hx (ix2 b' l)
  obtain ⟨n, hn, hb⟩ := binW_of_unit r h0 h1
  have hb' := b'.isLt
  refine ⟨n, hn, by rw [hr, hb], ?_⟩
  unfold flatW IntOp.addi IntOp.muli
  rw [hr, hb, BitVec.ofNat_mul_ofNat, BitVec.ofNat_add_ofNat]
  have hlt : b'.val * 20 + n < 2 ^ 32 := by omega
  have hnat : (BitVec.ofNat 32 (b'.val * 20 + n)).toNat = b'.val * 20 + n := by
    rw [BitVec.toNat_ofNat, Nat.mod_eq_of_lt hlt]
  rw [BitVec.toInt_eq_toNat_of_lt (by rw [hnat]; omega), hnat]

/-- Two natural numbers below `2^32` with the same 32-bit word are equal. -/
theorem ofNat32_inj {n k : ℕ} (hn : n < 2 ^ 32) (hk : k < 2 ^ 32) (h : BitVec.ofNat 32 n = BitVec.ofNat 32 k) : n = k := by
  have := congrArg BitVec.toNat h
  rwa [BitVec.toNat_ofNat, BitVec.toNat_ofNat, Nat.mod_eq_of_lt hn, Nat.mod_eq_of_lt hk] at this

/-- A position of row `b'` lands in slot `20·b + k` exactly when `b' = b` and its bin is `k`. -/
theorem lands_iff (x : SX.Idx → EReal) (hx : InUnit x) (b b' : Fin 64) (k : Fin 20) (l : Fin 1000000) :
    (flatW x b' l).toInt = ((b.val * 20 + k.val : ℕ) : ℤ) ↔ (b' = b ∧ binW (x (ix2 b' l)) = BitVec.ofNat 32 k.val) := by
  obtain ⟨n, hn, hbin, hflat⟩ := flatW_toInt x hx b' l
  have hk := k.isLt
  rw [hflat, hbin]
  constructor
  · intro e
    have e' : b'.val * 20 + n = b.val * 20 + k.val := by exact_mod_cast e
    have hb : b'.val = b.val := by omega
    have hnk : n = k.val := by omega
    exact ⟨Fin.ext hb, by rw [hnk]⟩
  · rintro ⟨rfl, e⟩
    have hnk : n = k.val := ofNat32_inj (by omega) (by omega) e
    rw [hnk]

/-! ## The count: the scatter's sum, re-indexed by row and column -/

/-- The positions of the flattened array are the pairs (row, column). -/
def flatEquiv : Fin 64 × Fin 1000000 ≃ S64000000.Idx where
  toFun p := ix1 (⟨p.1.val * 1000000 + p.2.val, by have := p.1.isLt; have := p.2.isLt; omega⟩ : Fin 64000000)
  invFun j :=
    (⟨(j 0).val / 1000000, by have h : (j 0).val < 64000000 := (j 0).isLt; omega⟩,
     ⟨(j 0).val % 1000000, by omega⟩)
  left_inv p := by
    have h2 := p.2.isLt
    refine Prod.ext (Fin.ext ?_) (Fin.ext ?_)
    · show (p.1.val * 1000000 + p.2.val) / 1000000 = p.1.val; omega
    · show (p.1.val * 1000000 + p.2.val) % 1000000 = p.2.val; omega
  right_inv j := by
    funext a
    match a with
    | ⟨0, _⟩ => exact Fin.ext (by show (j 0).val / 1000000 * 1000000 + (j 0).val % 1000000 = (j 0).val; omega)

/-- The scatter adds its updates onto the zero word's value … -/
theorem operand_zero (i : S1280.Idx) : ReadP.val_main_v12 (F := Ideal) i = 0 := by
  rw [ReadP.val_main_v12_apply, ReadP.val_main_cst_1_apply]
  exact Ideal.ofBits_zero_f32

/-- … and every update is one. -/
theorem update_one (j : S64000000.Idx) : ReadP.val_main_v11 (F := Ideal) j = 1 := by
  rw [ReadP.val_main_v11_apply, ReadP.val_main_cst_0_apply]
  exact ofBits_one_f32

/-- A float scatter-add read at a slot, over the extended reals: the operand element plus the sum of the updates
    whose result index is that slot. Stated for arbitrary shapes and operands. -/
theorem scatterAdd_ideal_apply {s si su : Shape} {w : ℕ} (d : ScatterDims s si su) (v : FVec Ideal s .f32)
    (idx : IVec si w) (upd : FVec Ideal su .f32) (i : s.Idx) :
    Host.scatterAdd d v idx upd i =
      v i + ∑ j ∈ Finset.univ.filter (fun j => d.resultIdx? j idx = some i), upd j := rfl

set_option maxHeartbeats 200000 in
/-- The position of row `b'`, column `l` lands in slot `20·b + k` exactly when `b' = b` and its bin is `k`. -/
theorem lands_at (x : SX.Idx → EReal) (hx : InUnit x) (b b' : Fin 64) (k : Fin 20) (l : Fin 1000000)
    (ht : b.val * 20 + k.val < 1280) :
    sd.resultIdx? (flatEquiv (b', l)) (ReadP.val_main_v13 (F := Ideal) x) = some (ix1 (⟨b.val * 20 + k.val, ht⟩ : Fin 1280)) ↔
      (b' = b ∧ binW (x (ix2 b' l)) = BitVec.ofNat 32 k.val) := by
  have hlt : b'.val * 1000000 + l.val < 64000000 := by have := b'.isLt; have := l.isLt; omega
  refine (sd_resultIdx_eq_some ⟨b'.val * 1000000 + l.val, hlt⟩ _ ⟨b.val * 20 + k.val, ht⟩).trans ?_
  rw [idx_word x b' l hlt]
  exact lands_iff x hx b b' k l

set_option maxHeartbeats 200000 in
/-- The reference's count array at row `b`, bin `k` is the number of columns of row `b` whose score falls in bin `k`. -/
theorem ref_count (x : SX.Idx → EReal) (hx : InUnit x) (b : Fin 64) (k : Fin 20) :
    ReadP.val_main_v15 (F := Ideal) x (ix2 b k) = count x b k := by
  have ht : b.val * 20 + k.val < 1280 := by have := b.isLt; have := k.isLt; omega
  have hi : ReadP.idx_main_v15 (ix2 b k) = ix1 (⟨b.val * 20 + k.val, ht⟩ : Fin 1280) := by
    funext a
    match a with
    | ⟨0, _⟩ => rfl
  rw [ReadP.val_main_v15_apply, hi]
  unfold ReadP.val_main_v14
  rw [scatterAdd_ideal_apply, operand_zero, zero_add, Finset.sum_filter, ← Equiv.sum_comp flatEquiv,
    Fintype.sum_prod_type, Fintype.sum_eq_single b]
  · unfold count
    refine Finset.sum_congr rfl fun l _ => ?_
    rw [update_one]
    exact if_congr ((lands_at x hx b b k l ht).trans (and_iff_right rfl)) rfl rfl
  · intro b' hb'
    refine Finset.sum_eq_zero fun l _ => ?_
    rw [if_neg (fun h => hb' ((lands_at x hx b b' k l ht).1 h).1)]

end Cert.Hist.Ref

end
-- ==== Proof.ReshapeCount.lean ====
/-
  The histogram's result layout flattened.

  The row-major flattening of a `[64, 5, 4]` array to `[64, 20]` puts entry `(b, h, q)` at `(b, 4·h + q)`; read backwards,
  entry `(b, k)` of the flattened array is entry `(b, k / 4, k % 4)`, and `4·(k / 4) + k % 4 = k`. So the flattened
  histogram-in-layout at `(b, k)` is row `b`'s count in bin `k`.
-/
import proofs.«123458_j73744588472820_2_alg».proof.Proof.Layout
import Idealize.ShloMosaic.Lib.Pipeline.Value

noncomputable section

namespace Cert.Hist

open Idealize.ShloMosaic Idealize.ShloMosaic.ValueIdx

/-- The flattened histogram-in-layout at `(b, k)` is the count of row `b` in bin `k`. -/
theorem reshape_G (x : SX.Idx → EReal) (hc : SR.ShapeCasts (⟨2, ![64, 20]⟩ : Shape)) (b : Fin 64) (k : Fin 20) :
    shapeCast (⟨2, ![64, 20]⟩ : Shape) (G x) hc (ix2 b k) = count x b k := by
  have hk := k.isLt
  have e := shapeCast_apply (G x) hc (ix2 b k)
    (ix3 b (⟨k.val / 4, by omega⟩ : Fin 5) (⟨k.val % 4, by omega⟩ : Fin 4)) (by
      rw [Shape.rowMajor_val_three, Shape.rowMajor_val_two]
      show (b.val * 5 + k.val / 4) * 4 + k.val % 4 = b.val * 20 + k.val
      omega)
  rw [e]
  unfold G
  exact count_congr x _ _ _ _ rfl (by show 4 * (k.val / 4) + k.val % 4 = k.val; omega)

end Cert.Hist

end
-- ==== Proof.RefSide.lean ====
/-
  The reference side as one run.

  Every execution of the reference ends with its result equal to the entropy of the histogram of its argument, laid
  out as the `[64, 5, 4]` array of digit-pair counts and flattened to `[64, 20]`: the run's composed term is the
  reference's last stage, the last stages are the entropy of the reference's table of counts, and that table is, entry
  by entry, the histogram's count, which is also the flattened layout's entry.
-/
import proofs.«123458_j73744588472820_2_alg».proof.Proof.RefRun
import proofs.«123458_j73744588472820_2_alg».proof.Proof.RefRead
import proofs.«123458_j73744588472820_2_alg».proof.Proof.RefTail
import proofs.«123458_j73744588472820_2_alg».proof.Proof.RefCount
import proofs.«123458_j73744588472820_2_alg».proof.Proof.ReshapeCount
import proofs.«123458_j73744588472820_2_alg».proof.Proof.Layout

noncomputable section

namespace Cert.Hist.Ref

open Idealize.ShloMosaic Idealize.ShloMosaic.TcCoe Idealize.SL.Sem Idealize.ShloMosaic.StableHlo
  Idealize.ShloMosaic.ValueIdx

/-- The reference's table of counts is the histogram's layout, flattened. -/
theorem counts_eq (x : SX.Idx → EReal) (hx : InUnit x) (hc : SR.ShapeCasts (⟨2, ![64, 20]⟩ : Shape)) :
    Cert.ReferenceIdeal.ReadP.val_main_v15 (F := Ideal) x = shapeCast (⟨2, ![64, 20]⟩ : Shape) (G x) hc := by
  funext i
  obtain ⟨b, k, rfl⟩ : ∃ (b : Fin 64) (k : Fin 20), i = ix2 b k := ⟨i 0, i 1, eq_ix2 i⟩
  rw [ref_count x hx b k, reshape_G x hc b k]

/-- Every execution of the reference ends with the entropy of the flattened histogram layout of its argument in its
    result, and its argument unchanged. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg)
    (hx : ∀ c : Dev Cert.ReferenceIdeal.nD,
      InUnit (m' ((c.tc : Thread Cert.ReferenceIdeal.nD Cert.ReferenceIdeal.τ).loc Cert.ReferenceIdeal.main_arg0)))
    (hc : SR.ShapeCasts (⟨2, ![64, 20]⟩ : Shape)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v29)
            = Cert.Hist.tail Cert.ReferenceIdeal.Gen.bcast_S_S64x20 Cert.ReferenceIdeal.Gen.reducesTo_S64x20_S_d0_1
                Cert.ReferenceIdeal.Gen.h_S_
                (shapeCast (⟨2, ![64, 20]⟩ : Shape)
                  (G (m' ((c.tc : Thread Cert.ReferenceIdeal.nD Cert.ReferenceIdeal.τ).loc Cert.ReferenceIdeal.main_arg0))) hc)
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  (θ_run _ _ _).mono (fun r h c => by
      obtain ⟨h1, h2⟩ := h c
      refine ⟨?_, h2⟩
      rw [h1, Cert.ReferenceIdeal.ReadP.val_main_v29_eq, ref_tail, counts_eq _ (hx c) hc])
    (Cert.ReferenceIdeal.ValueP.run (F := Ideal) m' ρ')

end Cert.Hist.Ref

end
-- ==== Proof.PreUnit.lean ====
/-
  From the printed precondition to the hypothesis the histogram lemmas use.

  The precondition is the conjunction of three "for all entries" tests on the score array: the absolute value
  is below +∞, the entry is at least 0, and the entry is below 1. Each test is an `and`-reduction of a
  one-bit comparison array over both axes. If the conjunction is the word 1, each reduction is 1, hence each
  comparison is 1 at every entry. Over the extended reals the last two comparisons say `0 ≤ x i` and
  `x i < 1`; an extended real between 0 and 1 is neither infinity, so it is a real number in `[0, 1)`.
-/
import proofs.«123458_j73744588472820_2_alg».proof.Proof.Spec
import proofs.«123458_j73744588472820_2_alg».proof.Proof.Gen.Pre_finite_inputs
import Idealize.ShloMosaic.Lib.ReduceAll
import Idealize.ShloMosaic.Lib.ValueIdx
import Idealize.ShloMosaic.PureOps.Ideal.Laws

noncomputable section

namespace Cert.Hist.Pre

open Idealize.ShloMosaic Idealize.ShloMosaic.ValueIdx

/-- The scalar shape has one index. -/
instance subsingleton_scalar_idx : Subsingleton Cert.Pre_finite_inputs.S_.Idx :=
  ⟨fun a b => funext fun d => d.elim0⟩

/-- The word `0x3F800000` is the real number one. -/
theorem ofBits_one_f32 : Ideal.ofBits .f32 0x3F800000#32 = 1 := by
  simp [Ideal.ofBits, Ideal.ieee, -EReal.coe_mul]; norm_num

/-- An ordered "less than" that answers 1 is the strict order. -/
theorem lt_of_cmp_olt {a b : EReal} (h : Ideal.cmp .olt a b = 1#1) : a < b := by
  by_contra hn
  simp [Ideal.cmp, hn] at h

/-- An ordered "greater or equal" that answers 1 is the order. -/
theorem le_of_cmp_oge {a b : EReal} (h : Ideal.cmp .oge a b = 1#1) : b ≤ a := by
  by_contra hn
  simp [Ideal.cmp, hn] at h

/-- An extended real in `[0, 1)` is a real number in `[0, 1)`. -/
theorem real_of_unit (v : EReal) (h0 : 0 ≤ v) (h1 : v < 1) : ∃ r : ℝ, v = (r : EReal) ∧ 0 ≤ r ∧ r < 1 := by
  induction v using EReal.rec with
  | bot => exact absurd h0 (by simp)
  | top => exact absurd h1 (by simp)
  | coe r => exact ⟨r, rfl, by exact_mod_cast h0, by exact_mod_cast h1⟩

/-- The printed precondition puts every score in `[0, 1)`. -/
theorem inUnit_of_pre (x : Cert.Hist.SX.Idx → EReal)
    (h : Cert.Pre_finite_inputs.fn (F := Ideal) x = fun _ => 1#1) : Cert.Hist.InUnit x := by
  have h0 := congrFun h ValueIdx.ix0
  dsimp only [Cert.Pre_finite_inputs.fn] at h0
  obtain ⟨h12, h3⟩ := IntOp.andi_eq_one.1 h0
  obtain ⟨_, h2⟩ := IntOp.andi_eq_one.1 h12
  intro i
  have e2 := Host.reduce_andi_all _ _ _ _ _ h2 i
  have e3 := Host.reduce_andi_all _ _ _ _ _ h3 i
  have g2 : Ideal.cmp .oge (x i) (Ideal.ofBits .f32 0x00000000#32) = 1#1 := e2
  have g3 : Ideal.cmp .olt (x i) (Ideal.ofBits .f32 0x3F800000#32) = 1#1 := e3
  rw [Ideal.ofBits_zero_f32] at g2
  rw [ofBits_one_f32] at g3
  exact real_of_unit (x i) (le_of_cmp_oge g2) (lt_of_cmp_olt g3)

end Cert.Hist.Pre

end
-- ==== Proof.lean ====
/-
  The certificate of the histogram-entropy kernel against its reference.

  Both programs take scores `x` of shape [64, 1000000] in `[0, 1)`, count for each of the 64 rows how many scores
  fall in each of the 20 bins `⌊20·x⌋`, and return the sum over rows and bins of `-p·log₂ p` for the frequencies
  `p = count / 1000000` (zero where `p = 0`).

  The reference adds a one, for every position of the flattened array, into slot `20·b + ⌊20·x⌋` of 1280 slots.
  The kernel visits each row half in 123 column tiles of 8192; per tile it masks the columns past the array's edge,
  splits the bin into `hi = ⌊5·x⌋` and `lo = ⌊20·x⌋ - 4·hi`, contracts the five 0/1 masks `hi = h` with the four
  `lo = q` over the tile's columns, and accumulates the 32 × 5 × 4 tiles in the output's buffer, which is written back
  after the last tile. For a score in `[0, 1)`, `lo` is one of 0, …, 3 and `(hi, lo) ↦ 4·hi + lo` is a bijection onto
  the bins, so the accumulated entry `(b, h, q)` is row `b`'s count in bin `4h + q`; flattened row-major to [64, 20]
  that is the reference's table of counts, and from there on the two programs apply the same operations. Sums of
  zeros and ones are exact at the extended reals, in any order and grouping.

  The three frames: the kernel's body run at every grid point (at any float instance, so both as printed and
  idealized), and the reference's run with its result dropped. Nothing was rewritten by the idealization.
-/
import proofs.«123458_j73744588472820_2_alg».proof.Defs
import proofs.«123458_j73744588472820_2_alg».proof.Proof.Gen.Kernel
import proofs.«123458_j73744588472820_2_alg».proof.Proof.Gen.KernelIdeal
import proofs.«123458_j73744588472820_2_alg».proof.Proof.Gen.ReferenceIdeal
import proofs.«123458_j73744588472820_2_alg».proof.Proof.Gen.Pre_finite_inputs
import proofs.«123458_j73744588472820_2_alg».proof.Proof.BodyK
import proofs.«123458_j73744588472820_2_alg».proof.Proof.KerSide
import proofs.«123458_j73744588472820_2_alg».proof.Proof.RefSide
import proofs.«123458_j73744588472820_2_alg».proof.Proof.PreUnit
import Idealize.ShloMosaic.Adequacy
import Idealize.ShloMosaic.Init

noncomputable section

namespace Cert.Proof

open Idealize.ShloMosaic Idealize.SL.Sem Cert.Hist

/-- The kernel as printed runs to the end, faults nowhere and leaves the scores unchanged. -/
theorem frame_k : Cert.frame_Kernel := fun m ρ _ => Cert.Kernel.Hand.frame m ρ
/-- So does the idealized kernel, -/
theorem frame_ki : Cert.frame_KernelIdeal := fun m ρ _ => Cert.KernelIdeal.Hand.frame m ρ
/-- and the idealized reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the scores, both idealized programs end at the entropy tail of the flattened histogram
    of the scores: the kernel by accumulating its tiles, the reference by its segment sum. -/
theorem algebraic : Cert.algebraic_KernelIdeal_ReferenceIdeal := by
  intro m ρ m' ρ' hpre hagree
  have hc : SR.ShapeCasts (⟨2, ![64, 20]⟩ : Shape) := Cert.KernelIdeal.Gen.shapeCasts_S64x5x4_S64x20
  -- the precondition puts every score in the unit interval, for the kernel's memory and so for the reference's
  have hx : ∀ c : Dev Cert.KernelIdeal.nD,
      InUnit (m ((c.tc : Thread Cert.KernelIdeal.nD Cert.KernelIdeal.τ).loc Cert.KernelIdeal.main_arg0)) :=
    fun c => Cert.Hist.Pre.inUnit_of_pre _ (hpre c)
  have hx' : ∀ c : Dev Cert.ReferenceIdeal.nD,
      InUnit (m' ((c.tc : Thread Cert.ReferenceIdeal.nD Cert.ReferenceIdeal.τ).loc Cert.ReferenceIdeal.main_arg0)) :=
    fun c => by rw [hagree c]; exact hx c
  refine ⟨fun c => Cert.Hist.tail Cert.KernelIdeal.Gen.bcast_S_S64x20 Cert.KernelIdeal.Gen.reducesTo_S64x20_S_d0_1 Cert.KernelIdeal.Gen.h_S_
      (shapeCast (⟨2, ![64, 20]⟩ : Shape)
        (G (m ((c.tc : Thread Cert.KernelIdeal.nD Cert.KernelIdeal.τ).loc Cert.KernelIdeal.main_arg0))) hc),
    Cert.KernelIdeal.Hand.ker_run m ρ hx hc, ?_⟩
  refine (θ_run Cert.ReferenceIdeal.defs _ _).mono (fun r h c => ?_) (Cert.Hist.Ref.ref_run m' ρ' hx' hc)
  obtain ⟨h1, h2⟩ := h c
  refine ⟨?_, h2⟩
  rw [h1, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
